-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S2 : Shape := ⟨1, ![2]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S16777216 .f32) (main_arg1 : IVec S16777216 32) (main_arg2 : FVec F S2 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S16777216 : Shape := ⟨1, ![16777216]⟩
abbrev S2 : Shape := ⟨1, ![2]⟩
abbrev S131072x128 : Shape := ⟨2, ![131072, 128]⟩
abbrev S2x8x128 : Shape := ⟨3, ![2, 8, 128]⟩
abbrev S2048x128 : Shape := ⟨2, ![2048, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S8 : Shape := ⟨1, ![8]⟩
abbrev S1 : Shape := ⟨1, ![1]⟩

abbrev nBuf : Space → Nat
  | .hbm => 53
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S2, .f32⟩
  | .hbm, ⟨3, _⟩ => ⟨S131072x128, .f32⟩
  | .hbm, ⟨4, _⟩ => ⟨S131072x128, .i32⟩
  | .hbm, ⟨5, _⟩ => ⟨S2x8x128, .f32⟩
  | .hbm, ⟨6, _⟩ => ⟨S_, .f32⟩
  | .hbm, ⟨7, _⟩ => ⟨S8x128, .f32⟩
  | .hbm, ⟨8, _⟩ => ⟨S_, .f32⟩
  | .hbm, ⟨9, _⟩ => ⟨S8, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v52 : BitVec 1 := Scalar.cmpi .eq arg1 c31_i32
  let v53 : BitVec 32 := Scalar.extui v52
  let c0_i32_27 : BitVec 32 := 0#32
  let v54 : BitVec 1 := Scalar.cmpi .ne v53 c0_i32_27
  v54

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S128 : S2048x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S8x128_d0 : S2x8x128.ReducesTo [0] S8x128
  h_S_ : 0 < S_.numel
  reducesTo_S8x128_S8_d1 : S8x128.ReducesTo [1] S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S2_S1_0 : S2.Slices ![0] S1
  slices_S2_S1_1 : S2.Slices ![1] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .i32 = 32 ∨ (Rect.block (s := S131072x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S2 : Shape := ⟨1, ![2]⟩
abbrev S_ : Shape := ⟨0, ![]⟩
abbrev S1 : Shape := ⟨1, ![1]⟩

abbrev nBuf : Space → Nat
  | .hbm => 77
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S2, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16777216, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16777216, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16777216, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16777216, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_cst_11 : Ref sig .tc := ⟨.hbm, 42, rfl⟩
abbrev main_v27 : Ref sig .tc := ⟨.hbm, 43, rfl⟩
abbrev main_v28 : Ref sig .tc := ⟨.hbm, 44, rfl⟩
abbrev main_cst_12 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_13 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_14 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_15 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  slices_S2_S1_0 : S2.Slices ![0] S1
  shapeCasts_S1_S_ : S1.ShapeCasts S_
  slices_S2_S1_1 : S2.Slices ![1] S1

variable [Facts₀]

class Facts : Prop extends Facts₀ where

variable [Facts]
-- ==== Proof.Spec.lean ====
/-
  The positive–negative–unlabeled risk.

  For scores `y j` and integer labels `t j` (`j` over a finite set) the per-example weights are
  `max (t j) 0` (positive), `max (-t j) 0` (negative) and `1 - |t j|` (unlabeled), the loss at a score is the
  logistic `sg x = 1 / (1 + exp (-x))`, and the risk is one fixed expression (`risk`) in seven sums over the
  examples and two class ratios. `G` states it over real scores and labels; it does not depend on how the
  examples are indexed (`G_comp`).
-/
import Idealize.ShloMosaic.PureOps.Ideal
import Idealize.ShloMosaic.Lib.ValueIdx

noncomputable section

open scoped BigOperators

namespace PNU

open Idealize.ShloMosaic

/-- The risk from the seven sums: `sp`, `sn`, `su` are the summed weights of the positive, negative and
    unlabeled examples; `a`, `b` the positive examples' summed losses at the negated and the plain score,
    `c` the negatives' and `d` the unlabeled ones' at the plain score; `p0`, `p1` the class ratios;
    `one` and `half` the constants `1` and `1/2` as the programs spell them. -/
def risk (one half sp sn su a b c d p0 p1 : EReal) : EReal :=
  half * (p0 * Ideal.div a (max one sp) + p1 * Ideal.div c (max one sn))
    + half * (p0 * (Ideal.div a (max one sp) - Ideal.div b (max one sp)) + Ideal.div d (max one su))

/-- The logistic function on the reals. -/
def sg (x : ℝ) : ℝ := (1 + Real.exp (-x))⁻¹

/-- `sg (-x) = 1 - sg x`. -/
theorem sg_neg (x : ℝ) : sg (-x) = 1 - sg x := by
  unfold sg
  rw [neg_neg]
  have h1 : (1 + Real.exp x) ≠ 0 := by positivity
  have h2 : (1 + Real.exp (-x)) ≠ 0 := by positivity
  rw [Real.exp_neg] at h2 ⊢
  have h3 : Real.exp x ≠ 0 := Real.exp_ne_zero x
  field_simp
  ring

section
variable {ι : Type*} [Fintype ι]

/-- The risk of real scores `y` and real labels `t` over the examples `ι`. -/
def G (one half : EReal) (y t : ι → ℝ) (p0 p1 : EReal) : EReal :=
  risk one half
    ((∑ j, max (t j) 0 : ℝ) : EReal)
    ((∑ j, max (-(t j)) 0 : ℝ) : EReal)
    ((∑ j, (1 - |t j|) : ℝ) : EReal)
    ((∑ j, max (t j) 0 * sg (-(y j)) : ℝ) : EReal)
    ((∑ j, max (t j) 0 * sg (y j) : ℝ) : EReal)
    ((∑ j, max (-(t j)) 0 * sg (y j) : ℝ) : EReal)
    ((∑ j, (1 - |t j|) * sg (y j) : ℝ) : EReal)
    p0 p1

/-- Re-indexing the examples through a bijection does not change the risk. -/
theorem G_comp {κ : Type*} [Fintype κ] (e : κ ≃ ι) (one half : EReal) (y t : ι → ℝ) (p0 p1 : EReal) :
    G one half (fun k => y (e k)) (fun k => t (e k)) p0 p1 = G one half y t p0 p1 := by
  unfold G
  rw [Fintype.sum_equiv e (fun k => max (t (e k)) 0) (fun j => max (t j) 0) (fun _ => rfl),
    Fintype.sum_equiv e (fun k => max (-(t (e k))) 0) (fun j => max (-(t j)) 0) (fun _ => rfl),
    Fintype.sum_equiv e (fun k => 1 - |t (e k)|) (fun j => 1 - |t j|) (fun _ => rfl),
    Fintype.sum_equiv e (fun k => max (t (e k)) 0 * sg (-(y (e k)))) (fun j => max (t j) 0 * sg (-(y j))) (fun _ => rfl),
    Fintype.sum_equiv e (fun k => max (t (e k)) 0 * sg (y (e k))) (fun j => max (t j) 0 * sg (y j)) (fun _ => rfl),
    Fintype.sum_equiv e (fun k => max (-(t (e k))) 0 * sg (y (e k))) (fun j => max (-(t j)) 0 * sg (y j)) (fun _ => rfl),
    Fintype.sum_equiv e (fun k => (1 - |t (e k)|) * sg (y (e k))) (fun j => (1 - |t j|) * sg (y j)) (fun _ => rfl)]

/-- The three identities by which five sums give the other two and the unlabeled weight: the weights add to one at
    every example, and the logistic at the negated score is one minus the logistic. -/
theorem sums_from_five (y t : ι → ℝ) :
    (∑ j, (1 - |t j|)) = (Fintype.card ι : ℝ) - (∑ j, max (t j) 0) - (∑ j, max (-(t j)) 0)
    ∧ (∑ j, max (t j) 0 * sg (-(y j))) = (∑ j, max (t j) 0) - (∑ j, max (t j) 0 * sg (y j))
    ∧ (∑ j, (1 - |t j|) * sg (y j))
        = (∑ j, sg (y j)) - (∑ j, max (t j) 0 * sg (y j)) - (∑ j, max (-(t j)) 0 * sg (y j)) := by
  have habs : ∀ x : ℝ, |x| = max x 0 + max (-x) 0 := by
    intro x
    rcases le_total 0 x with h | h
    · rw [abs_of_nonneg h, max_eq_left h, max_eq_right (by linarith)]; ring
    · rw [abs_of_nonpos h, max_eq_right h, max_eq_left (by linarith)]; ring
  refine ⟨?_, ?_, ?_⟩
  · simp only [habs]
    rw [Finset.sum_sub_distrib, Finset.sum_add_distrib]
    simp only [Finset.sum_const, Finset.card_univ, nsmul_eq_mul, mul_one]
    ring
  · rw [← Finset.sum_sub_distrib]
    exact Finset.sum_congr rfl fun j _ => by rw [sg_neg]; ring
  · rw [← Finset.sum_sub_distrib, ← Finset.sum_sub_distrib]
    exact Finset.sum_congr rfl fun j _ => by rw [habs]; ring

end

end PNU

end
-- ==== Proof.Tile.lean ====
/-
  One grid point's arithmetic, read at an element.

  A point loads a tile of 2048 rows by 128 lanes of scores `y` and of integer labels, forms at every element the
  label as a real `t`, the weights `max t 0` and `max (0 - t) 0` and the logistic of the score, and adds to rows
  0 to 4 of an 8 by 128 accumulator, lane by lane, the sums over the tile's rows of: the positive weight, the negative
  weight, the logistic, and the two weights times the logistic.
-/
import proofs.«136390_j37366215475814_2_alg».proof.Proof.Gen.KernelIdeal.Skeleton
import proofs.«136390_j37366215475814_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- An integer label as an extended real. -/
def lab (b : BitVec 32) : EReal := ((b.toInt : ℝ) : EReal)

/-- The five per-element terms, by accumulator row, of a score `y` and a label `t`; rows 5 to 7 receive nothing. -/
def term (r : Fin 8) (y t : EReal) : EReal :=
  if r.val = 0 then max t 0
  else if r.val = 1 then max (0 - t) 0
  else if r.val = 2 then Ideal.logistic y
  else if r.val = 3 then max t 0 * Ideal.logistic y
  else if r.val = 4 then max (0 - t) 0 * Ideal.logistic y
  else 0

/-- Row `r`'s increment at lane `c` from one tile: the sum of the row's term down the tile's 2048 rows. -/
def inc (x0 : Vec Ideal S2048x128 .f32) (x1 : Vec Ideal S2048x128 .i32) (r : Fin 8) (c : Fin 128) : EReal :=
  ∑ k : Fin 2048, term r (x0 (ix2 k c)) (lab (x1 (ix2 k c)))

/-- The positive weight at an element. -/
theorem pay8_apply (v5 : Vec Ideal S2048x128 .i32) (j : S2048x128.Idx) :
    k0_pay8 (F := Ideal) v5 j = max (lab (v5 j)) 0 := by
  unfold k0_pay8 k0_pay7
  simp only [maximumf_apply, sitofp_apply, broadcast_apply, shapeCast_self]
  show max _ (Ideal.ofBits .f32 0x00000000#32) = _
  rw [Ideal.ofBits_zero_f32]
  rfl

/-- The negative weight at an element. -/
theorem pay9_apply (v5 : Vec Ideal S2048x128 .i32) (j : S2048x128.Idx) :
    k0_pay9 (F := Ideal) v5 j = max (0 - lab (v5 j)) 0 := by
  unfold k0_pay9 k0_pay7
  simp only [maximumf_apply, subf_apply, sitofp_apply, broadcast_apply, shapeCast_self]
  show max (Ideal.ofBits .f32 0x00000000#32 - _) (Ideal.ofBits .f32 0x00000000#32) = _
  rw [Ideal.ofBits_zero_f32]
  rfl

/-- The logistic of the score at an element. -/
theorem pay10_apply (v3 : Vec Ideal S2048x128 .f32) (j : S2048x128.Idx) :
    k0_pay10 (F := Ideal) v3 j = Ideal.logistic (v3 j) := by
  unfold k0_pay10
  simp only [shapeCast_self]
  rfl

/-- A sum down the tile's rows, re-laid as a one-row block, read at lane `c`. -/
theorem rowsum_apply (src : FVec Ideal S2048x128 .f32) (c : Fin 128) :
    shapeCast S1x128 (multiReduction .add [0] S128 src 0x00000000#32 reduces_S2048x128_S128 (.inl rfl) rfl)
      shapeCasts_S128_S1x128 (ix2 0 c) = ∑ k : Fin 2048, src (ix2 k c) := by
  rw [shapeCast_apply _ _ (ix2 0 c) (ix1 c) (by rw [Shape.rowMajor_val_one, Shape.rowMajor_val_two]; simp)]
  refine (Ideal.multiReduction_add_single src 0x00000000#32 reduces_S2048x128_S128 (.inl rfl) rfl (ix1 c)).trans ?_
  refine Finset.sum_congr rfl fun k _ => congrArg src ?_
  funext a
  match a with
  | ⟨0, _⟩ => rfl
  | ⟨1, _⟩ => rfl

/-- Row 0's store at lane `c`: what the row held plus the tile's summed positive weights. -/
theorem row0_apply (v3 : Vec Ideal S2048x128 .f32) (v5 : Vec Ideal S2048x128 .i32) (a : Vec Ideal S1x128 .f32) (c : Fin 128) :
    k0_pay14 (F := Ideal) v5 a (ix2 0 c) = a (ix2 0 c) + inc v3 v5 0 c := by
  unfold k0_pay14
  simp only [shapeCast_self, addf_apply]
  refine congrArg (a (ix2 0 c) + ·) ((rowsum_apply _ c).trans (Finset.sum_congr rfl fun k _ => ?_))
  rw [pay8_apply]; rfl

/-- Row 1's store: plus the summed negative weights. -/
theorem row1_apply (v3 : Vec Ideal S2048x128 .f32) (v5 : Vec Ideal S2048x128 .i32) (a : Vec Ideal S1x128 .f32) (c : Fin 128) :
    k0_pay1 (F := Ideal) (k0_pay15 v5 a) (ix2 0 c) = a (ix2 0 c) + inc v3 v5 1 c := by
  unfold k0_pay1 k0_pay15
  simp only [shapeCast_self, addf_apply]
  refine congrArg (a (ix2 0 c) + ·) ((rowsum_apply _ c).trans (Finset.sum_congr rfl fun k _ => ?_))
  rw [pay9_apply]; rfl

/-- Row 2's store: plus the summed logistics. -/
theorem row2_apply (v3 : Vec Ideal S2048x128 .f32) (v5 : Vec Ideal S2048x128 .i32) (a : Vec Ideal S1x128 .f32) (c : Fin 128) :
    k0_pay2 (F := Ideal) (k0_pay11 v3) a (ix2 0 c) = a (ix2 0 c) + inc v3 v5 2 c := by
  unfold k0_pay2 k0_pay11
  simp only [shapeCast_self, addf_apply]
  refine congrArg (a (ix2 0 c) + ·) ((rowsum_apply _ c).trans (Finset.sum_congr rfl fun k _ => ?_))
  rw [pay10_apply]; rfl

/-- Row 3's store: plus the summed positive weights times the logistic. -/
theorem row3_apply (v3 : Vec Ideal S2048x128 .f32) (v5 : Vec Ideal S2048x128 .i32) (a : Vec Ideal S1x128 .f32) (c : Fin 128) :
    k0_pay3 (F := Ideal) (k0_pay12 v3 v5) a (ix2 0 c) = a (ix2 0 c) + inc v3 v5 3 c := by
  unfold k0_pay3 k0_pay12
  simp only [shapeCast_self, addf_apply]
  refine congrArg (a (ix2 0 c) + ·) ((rowsum_apply _ c).trans (Finset.sum_congr rfl fun k _ => ?_))
  rw [mulf_apply, pay8_apply, pay10_apply]; rfl

/-- Row 4's store: plus the summed negative weights times the logistic. -/
theorem row4_apply (v3 : Vec Ideal S2048x128 .f32) (v5 : Vec Ideal S2048x128 .i32) (a : Vec Ideal S1x128 .f32) (c : Fin 128) :
    k0_pay4 (F := Ideal) (k0_pay13 v3 v5) a (ix2 0 c) = a (ix2 0 c) + inc v3 v5 4 c := by
  unfold k0_pay4 k0_pay13
  simp only [shapeCast_self, addf_apply]
  refine congrArg (a (ix2 0 c) + ·) ((rowsum_apply _ c).trans (Finset.sum_congr rfl fun k _ => ?_))
  rw [mulf_apply, pay9_apply, pay10_apply]; rfl

/-- Rows 5 to 7 receive nothing from a tile. -/
theorem inc_high (x0 : Vec Ideal S2048x128 .f32) (x1 : Vec Ideal S2048x128 .i32) (r : Fin 8) (h : 5 ≤ r.val) (c : Fin 128) :
    inc x0 x1 r c = 0 := by
  unfold inc
  refine Finset.sum_eq_zero fun k _ => ?_
  unfold term
  rw [if_neg (by omega), if_neg (by omega), if_neg (by omega), if_neg (by omega), if_neg (by omega)]

/-- The block a point's first store leaves everywhere: zero. -/
theorem pay6_apply (j : S8x128.Idx) : k0_pay6 (F := Ideal) j = 0 := by
  unfold k0_pay6
  simp only [shapeCast_self, broadcast_apply]
  exact Ideal.ofBits_zero_f32

/-- The output block's store: the accumulator under a leading unit axis. -/
theorem pay5_apply (v55 : Vec Ideal S8x128 .f32) (r : Fin 8) (c : Fin 128) :
    k0_pay5 (F := Ideal) v55 (ix3 0 r c) = v55 (ix2 r c) := by
  unfold k0_pay5
  exact shapeCast_apply _ _ (ix3 0 r c) (ix2 r c) (by rw [Shape.rowMajor_val_two, Shape.rowMajor_val_three]; simp)

end Cert.KernelIdeal.Tile

end
-- ==== Proof.Pieces.lean ====
/-
  What one grid point leaves in the 8 by 128 accumulator, read at a row and a lane.

  Each point stores rows 0 to 4 one row at a time, each row what it held plus that row's sum over the point's tile;
  the first point of a half first stores zero everywhere; the last point of a half then copies the accumulator to
  the output block.
-/
import proofs.«136390_j37366215475814_2_alg».proof.Proof.Gen.KernelIdeal.Frame
import proofs.«136390_j37366215475814_2_alg».proof.Proof.Tile
import Idealize.ShloMosaic.Lib.Pipeline.Value
import Idealize.ShloMosaic.Lib.WritesUnit
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Pieces

open Cert.KernelIdeal Cert.KernelIdeal.Gen Cert.KernelIdeal.Tile

theorem hz2 : (![0, 0] : Fin 2 → Nat) = fun _ => 0 := funext fun a => by fin_cases a <;> rfl

section Rows
variable {sg : RefSig} {κ : Kind} {sp : Space} {Val : EltTy → Type}
variable (v : View sg κ sp S8x128 .f32) (f : v.ty.Contents Val)

/-- Five stores of one row each, rows 4 down to 0 newest first, read at row `r`, lane `c`: the row's store at the lane
    for the first five rows, what the earlier stores left for the others. -/
theorem read_rows5 (inb0 : ∀ a, (![0, 0] : Fin 2 → Nat) a + S1x128.size a ≤ S8x128.size a)
    (inb1 : ∀ a, (![1, 0] : Fin 2 → Nat) a + S1x128.size a ≤ S8x128.size a)
    (inb2 : ∀ a, (![2, 0] : Fin 2 → Nat) a + S1x128.size a ≤ S8x128.size a)
    (inb3 : ∀ a, (![3, 0] : Fin 2 → Nat) a + S1x128.size a ≤ S8x128.size a)
    (inb4 : ∀ a, (![4, 0] : Fin 2 → Nat) a + S1x128.size a ≤ S8x128.size a)
    (w0 w1 w2 w3 w4 : S1x128.Idx → Val .f32) (L : List (View.Piece Val S8x128 .f32)) (r : Fin 8) (c : Fin 128) :
    v.read Val (v.writes Val f ((⟨Rect.unit ![4, 0] S1x128.size inb4, w4⟩ : View.Piece Val S8x128 .f32)
        :: ⟨Rect.unit ![3, 0] S1x128.size inb3, w3⟩ :: ⟨Rect.unit ![2, 0] S1x128.size inb2, w2⟩
        :: ⟨Rect.unit ![1, 0] S1x128.size inb1, w1⟩ :: ⟨Rect.unit ![0, 0] S1x128.size inb0, w0⟩ :: L)) (ix2 r c)
      = if r.val = 0 then w0 (ix2 0 c) else if r.val = 1 then w1 (ix2 0 c) else if r.val = 2 then w2 (ix2 0 c)
        else if r.val = 3 then w3 (ix2 0 c) else if r.val = 4 then w4 (ix2 0 c)
        else v.read Val (v.writes Val f L) (ix2 r c) := by
  obtain ⟨r, hr⟩ := r
  by_cases h4 : r = 4
  · subst h4
    exact View.read_writes_cons_rows_of_mem v f inb4 w4 _ _ (ix2 0 c) rfl rfl rfl
  refine (View.read_writes_cons_rows_of_not_mem v f inb4 w4 _ _ rfl rfl (by show r < 4 ∨ 4 + 1 ≤ r; omega)).trans ?_
  by_cases h3 : r = 3
  · subst h3
    exact View.read_writes_cons_rows_of_mem v f inb3 w3 _ _ (ix2 0 c) rfl rfl rfl
  refine (View.read_writes_cons_rows_of_not_mem v f inb3 w3 _ _ rfl rfl (by show r < 3 ∨ 3 + 1 ≤ r; omega)).trans ?_
  by_cases h2 : r = 2
  · subst h2
    exact View.read_writes_cons_rows_of_mem v f inb2 w2 _ _ (ix2 0 c) rfl rfl rfl
  refine (View.read_writes_cons_rows_of_not_mem v f inb2 w2 _ _ rfl rfl (by show r < 2 ∨ 2 + 1 ≤ r; omega)).trans ?_
  by_cases h1 : r = 1
  · subst h1
    exact View.read_writes_cons_rows_of_mem v f inb1 w1 _ _ (ix2 0 c) rfl rfl rfl
  refine (View.read_writes_cons_rows_of_not_mem v f inb1 w1 _ _ rfl rfl (by show r < 1 ∨ 1 + 1 ≤ r; omega)).trans ?_
  by_cases h0 : r = 0
  · subst h0
    exact View.read_writes_cons_rows_of_mem v f inb0 w0 _ _ (ix2 0 c) rfl rfl rfl
  refine (View.read_writes_cons_rows_of_not_mem v f inb0 w0 _ _ rfl rfl (by show r < 0 ∨ 0 + 1 ≤ r; omega)).trans ?_
  rw [if_neg h0, if_neg h1, if_neg h2, if_neg h3, if_neg h4]

/-- A load of row `o` of an 8-row buffer's contents, read at lane `l`. -/
theorem ld_row (X : S8x128.Idx → Val .f32) (o : Nat) (ho : o < 8)
    (inb : ∀ a, (![o, 0] : Fin 2 → Nat) a + S1x128.size a ≤ S8x128.size a) (l : Fin 128) :
    View.ld X (Rect.unit ![o, 0] S1x128.size inb) (ix2 0 l) = X (ix2 ⟨o, ho⟩ l) := by
  show X _ = X _
  congr 1
  funext a
  apply Fin.ext
  match a with
  | ⟨0, _⟩ => show o + 1 * 0 = o; omega
  | ⟨1, _⟩ => show 0 + 1 * l.val = l.val; omega

/-- A store of one row is not seen from another row. -/
theorem read_skip_row (o : Nat) (inb : ∀ a, (![o, 0] : Fin 2 → Nat) a + S1x128.size a ≤ S8x128.size a)
    (w : S1x128.Idx → Val .f32) (L : List (View.Piece Val S8x128 .f32)) (r : Fin 8) (l : Fin 128) (h : r.val ≠ o) :
    v.read Val (v.writes Val f ((⟨Rect.unit ![o, 0] S1x128.size inb, w⟩ : View.Piece Val S8x128 .f32) :: L)) (ix2 r l)
      = v.read Val (v.writes Val f L) (ix2 r l) :=
  View.read_writes_cons_rows_of_not_mem v f inb w L _ rfl rfl (by show r.val < o ∨ o + 1 ≤ r.val; omega)

/-- A store of the whole buffer, newest, read anywhere: its payload there. -/
theorem read_whole (inb : ∀ a, (![0, 0] : Fin 2 → Nat) a + S8x128.size a ≤ S8x128.size a)
    (w : S8x128.Idx → Val .f32) (L : List (View.Piece Val S8x128 .f32)) (r : Fin 8) (l : Fin 128) :
    v.read Val (v.writes Val f ((⟨Rect.unit ![0, 0] S8x128.size inb, w⟩ : View.Piece Val S8x128 .f32) :: L)) (ix2 r l)
      = w (ix2 r l) :=
  View.read_writes_cons_unit_of_mem v f inb w L _ (ix2 r l) rfl (fun a => by
    match a with
    | ⟨0, _⟩ => exact (Nat.zero_add _).symm
    | ⟨1, _⟩ => exact (Nat.zero_add _).symm)

/-- A load of row `o` after a list of stores, read at lane `l`: the stores read at that row and lane. -/
theorem readCov_row [∀ e, Nonempty (Val e)] (L : List (View.Piece Val S8x128 .f32)) (o : Nat) (ho : o < 8)
    (inb : ∀ a, (![o, 0] : Fin 2 → Nat) a + S1x128.size a ≤ S8x128.size a) (l : Fin 128) :
    v.readCov L (Rect.unit (s := S8x128) ![o, 0] S1x128.size inb).toLoadRect (ix2 0 l)
      = v.read Val (v.writes Val v.junk L) (ix2 ⟨o, ho⟩ l) :=
  ld_row (v.read Val (v.writes Val v.junk L)) o ho inb l

end Rows

/-- A point that is neither first nor last in its half: every row of the accumulator is what it was plus that row's
    sum over the point's tile (nothing, for rows 5 to 7). -/
theorem scratch_B (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : ¬cond0_1 i) (x0 : Vec Ideal S2048x128 .f32) (x1 : Vec Ideal S2048x128 .i32) (xs0 : Vec Ideal S8x128 .f32)
    (r : Fin 8) (l : Fin 128) :
    sout0_B_0 (F := Ideal) c i arg2 harg2 arg3 harg3 arg4 harg4 arg5 harg5 hc0 hc1 x0 x1 xs0 (ix2 r l)
      = xs0 (ix2 r l) + inc x0 x1 r l := by
  unfold sout0_B_0 kernelRun0_B
  dsimp only
  sl_unfold_words
  refine (read_rows5 (Val := Elt Ideal) arg5.view (harg5.unread xs0) inb_S8x128_S1x128_0_0 inb_S8x128_S1x128_1_0
    inb_S8x128_S1x128_2_0 inb_S8x128_S1x128_3_0 inb_S8x128_S1x128_4_0 _ _ _ _ _ [] r l).trans ?_
  simp only [View.readAt_eq_ld, harg2.read_unread, harg3.read_unread, harg5.read_unread,
    View.ld_unit_zero (S := S2048x128) hz2, View.writes_nil]
  obtain ⟨r, hr⟩ := r
  split_ifs with h0 h1 h2 h3 h4
  · dsimp only at h0; subst h0
    exact (row0_apply x0 x1 (View.ld xs0 (Rect.unit ![0, 0] S1x128.size inb_S8x128_S1x128_0_0)) l).trans
      (congrArg (· + inc x0 x1 0 l) (ld_row xs0 0 hr inb_S8x128_S1x128_0_0 l))
  · dsimp only at h1; subst h1
    exact (row1_apply x0 x1 (View.ld xs0 (Rect.unit ![1, 0] S1x128.size inb_S8x128_S1x128_1_0)) l).trans
      (congrArg (· + inc x0 x1 1 l) (ld_row xs0 1 hr inb_S8x128_S1x128_1_0 l))
  · dsimp only at h2; subst h2
    exact (row2_apply x0 x1 (View.ld xs0 (Rect.unit ![2, 0] S1x128.size inb_S8x128_S1x128_2_0)) l).trans
      (congrArg (· + inc x0 x1 2 l) (ld_row xs0 2 hr inb_S8x128_S1x128_2_0 l))
  · dsimp only at h3; subst h3
    exact (row3_apply x0 x1 (View.ld xs0 (Rect.unit ![3, 0] S1x128.size inb_S8x128_S1x128_3_0)) l).trans
      (congrArg (· + inc x0 x1 3 l) (ld_row xs0 3 hr inb_S8x128_S1x128_3_0 l))
  · dsimp only at h4; subst h4
    exact (row4_apply x0 x1 (View.ld xs0 (Rect.unit ![4, 0] S1x128.size inb_S8x128_S1x128_4_0)) l).trans
      (congrArg (· + inc x0 x1 4 l) (ld_row xs0 4 hr inb_S8x128_S1x128_4_0 l))
  · dsimp only at h0 h1 h2 h3 h4
    rw [inc_high x0 x1 ⟨r, hr⟩ (by show 5 ≤ r; omega) l, add_zero]

/-- The last point of a half: the accumulator's rows change as at any other point, -/
theorem scratch_C (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : cond0_1 i) (x0 : Vec Ideal S2048x128 .f32) (x1 : Vec Ideal S2048x128 .i32) (xs0 : Vec Ideal S8x128 .f32)
    (r : Fin 8) (l : Fin 128) :
    sout0_C_0 (F := Ideal) c i arg2 harg2 arg3 harg3 arg4 harg4 arg5 harg5 hc0 hc1 x0 x1 xs0 (ix2 r l)
      = xs0 (ix2 r l) + inc x0 x1 r l := by
  unfold sout0_C_0 kernelRun0_C
  dsimp only
  sl_unfold_words
  refine (read_rows5 (Val := Elt Ideal) arg5.view (harg5.unread xs0) inb_S8x128_S1x128_0_0 inb_S8x128_S1x128_1_0
    inb_S8x128_S1x128_2_0 inb_S8x128_S1x128_3_0 inb_S8x128_S1x128_4_0 _ _ _ _ _ [] r l).trans ?_
  simp only [View.readAt_eq_ld, harg2.read_unread, harg3.read_unread, harg5.read_unread,
    View.ld_unit_zero (S := S2048x128) hz2, View.writes_nil]
  obtain ⟨r, hr⟩ := r
  split_ifs with h0 h1 h2 h3 h4
  · dsimp only at h0; subst h0
    exact (row0_apply x0 x1 (View.ld xs0 (Rect.unit ![0, 0] S1x128.size inb_S8x128_S1x128_0_0)) l).trans
      (congrArg (· + inc x0 x1 0 l) (ld_row xs0 0 hr inb_S8x128_S1x128_0_0 l))
  · dsimp only at h1; subst h1
    exact (row1_apply x0 x1 (View.ld xs0 (Rect.unit ![1, 0] S1x128.size inb_S8x128_S1x128_1_0)) l).trans
      (congrArg (· + inc x0 x1 1 l) (ld_row xs0 1 hr inb_S8x128_S1x128_1_0 l))
  · dsimp only at h2; subst h2
    exact (row2_apply x0 x1 (View.ld xs0 (Rect.unit ![2, 0] S1x128.size inb_S8x128_S1x128_2_0)) l).trans
      (congrArg (· + inc x0 x1 2 l) (ld_row xs0 2 hr inb_S8x128_S1x128_2_0 l))
  · dsimp only at h3; subst h3
    exact (row3_apply x0 x1 (View.ld xs0 (Rect.unit ![3, 0] S1x128.size inb_S8x128_S1x128_3_0)) l).trans
      (congrArg (· + inc x0 x1 3 l) (ld_row xs0 3 hr inb_S8x128_S1x128_3_0 l))
  · dsimp only at h4; subst h4
    exact (row4_apply x0 x1 (View.ld xs0 (Rect.unit ![4, 0] S1x128.size inb_S8x128_S1x128_4_0)) l).trans
      (congrArg (· + inc x0 x1 4 l) (ld_row xs0 4 hr inb_S8x128_S1x128_4_0 l))
  · dsimp only at h0 h1 h2 h3 h4
    rw [inc_high x0 x1 ⟨r, hr⟩ (by show 5 ≤ r; omega) l, add_zero]

theorem hz3 : (![0, 0, 0] : Fin 3 → Nat) = fun _ => 0 := funext fun a => by fin_cases a <;> rfl

/-- and the output block is left holding the accumulator, under a leading unit axis. -/
theorem out_C (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x8x128 .f32)
    (harg4 : arg4.IsWhole) (arg5 : Memref sig .tc .vmem S8x128 .f32) (harg5 : arg5.IsWhole) (hc0 : ¬cond0_0 i)
    (hc1 : cond0_1 i) (x0 : Vec Ideal S2048x128 .f32) (x1 : Vec Ideal S2048x128 .i32) (xs0 : Vec Ideal S8x128 .f32)
    (r : Fin 8) (l : Fin 128) :
    out0_C_2 (F := Ideal) c i arg2 harg2 arg3 harg3 arg4 harg4 arg5 harg5 hc0 hc1 x0 x1 xs0 (ix3 0 r l)
      = sout0_C_0 (F := Ideal) c i arg2 harg2 arg3 harg3 arg4 harg4 arg5 harg5 hc0 hc1 x0 x1 xs0 (ix2 r l) := by
  unfold out0_C_2 sout0_C_0 kernelRun0_C
  dsimp only
  sl_unfold_words
  refine (congrFun (View.read_writes_junk_eq_canon VO0_2 _) (ix3 0 r l)).trans ?_
  refine (congrFun (View.canon_unit_zero hz3 _ _) (ix3 0 r l)).trans ?_
  refine (pay5_apply _ r l).trans ?_
  exact congrFun ((View.readAt_eq_ld _ _ _).trans (View.ld_unit_zero (S := S8x128) hz2 _ _)) (ix2 r l)

/-- The first point of a half: the accumulator is zeroed and then receives the point's tile sums, so it ends holding
    exactly those sums (zero in rows 5 to 7). -/
theorem scratch_A (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x8x128 .f32)
    (harg4 : arg4.IsWhole) (arg5 : Memref sig .tc .vmem S8x128 .f32) (harg5 : arg5.IsWhole) (hc0 : cond0_0 i)
    (hc1 : ¬cond0_1 i) (x0 : Vec Ideal S2048x128 .f32) (x1 : Vec Ideal S2048x128 .i32) (r : Fin 8) (l : Fin 128) :
    sout0_A_0 (F := Ideal) c i arg2 harg2 arg3 harg3 arg4 harg4 arg5 harg5 hc0 hc1 x0 x1 (ix2 r l) = inc x0 x1 r l := by
  unfold sout0_A_0 kernelRun0_A
  dsimp only
  sl_unfold_words
  refine (read_rows5 (Val := Elt Ideal) VS0_0 VS0_0.junk inb_S8x128_S1x128_0_0 inb_S8x128_S1x128_1_0
    inb_S8x128_S1x128_2_0 inb_S8x128_S1x128_3_0 inb_S8x128_S1x128_4_0 _ _ _ _ _
    [⟨Rect.unit ![0, 0] S8x128.size inb_S8x128_S8x128_0_0, k0_pay6 (F := Ideal)⟩] r l).trans ?_
  have e0 : View.readAt (Elt Ideal) arg2.view (Rect.unit ![0, 0] S2048x128.size inb_S2048x128_S2048x128_0_0).toLoadRect
      (harg2.unread x0) = x0 := by
    rw [View.readAt_eq_ld, harg2.read_unread, View.ld_unit_zero (S := S2048x128) hz2]
  have e1 : View.readAt (Elt Ideal) arg3.view (Rect.unit ![0, 0] S2048x128.size inb_S2048x128_S2048x128_0_0).toLoadRect
      (harg3.unread x1) = x1 := by
    rw [View.readAt_eq_ld, harg3.read_unread, View.ld_unit_zero (S := S2048x128) hz2]
  simp only [e0, e1]
  obtain ⟨r, hr⟩ := r
  split_ifs with h0 h1 h2 h3 h4
  · dsimp only at h0; subst h0
    refine (row0_apply x0 x1 _ l).trans ?_
    refine (congrArg (· + inc x0 x1 0 l) ?_).trans (zero_add _)
    refine (readCov_row (Val := Elt Ideal) arg5.view _ 0 hr inb_S8x128_S1x128_0_0 l).trans ?_
    exact (read_whole (Val := Elt Ideal) arg5.view _ inb_S8x128_S8x128_0_0 _ [] ⟨0, hr⟩ l).trans (pay6_apply _)
  · dsimp only at h1; subst h1
    refine (row1_apply x0 x1 _ l).trans ?_
    refine (congrArg (· + inc x0 x1 1 l) ?_).trans (zero_add _)
    refine (readCov_row (Val := Elt Ideal) arg5.view _ 1 hr inb_S8x128_S1x128_1_0 l).trans ?_
    refine (read_skip_row (Val := Elt Ideal) arg5.view _ 0 inb_S8x128_S1x128_0_0 _ _ ⟨1, hr⟩ l (by show (1 : ℕ) ≠ _; omega)).trans ?_
    exact (read_whole (Val := Elt Ideal) arg5.view _ inb_S8x128_S8x128_0_0 _ [] ⟨1, hr⟩ l).trans (pay6_apply _)
  · dsimp only at h2; subst h2
    refine (row2_apply x0 x1 _ l).trans ?_
    refine (congrArg (· + inc x0 x1 2 l) ?_).trans (zero_add _)
    refine (readCov_row (Val := Elt Ideal) arg5.view _ 2 hr inb_S8x128_S1x128_2_0 l).trans ?_
    refine (read_skip_row (Val := Elt Ideal) arg5.view _ 1 inb_S8x128_S1x128_1_0 _ _ ⟨2, hr⟩ l (by show (2 : ℕ) ≠ _; omega)).trans ?_
    refine (read_skip_row (Val := Elt Ideal) arg5.view _ 0 inb_S8x128_S1x128_0_0 _ _ ⟨2, hr⟩ l (by show (2 : ℕ) ≠ _; omega)).trans ?_
    exact (read_whole (Val := Elt Ideal) arg5.view _ inb_S8x128_S8x128_0_0 _ [] ⟨2, hr⟩ l).trans (pay6_apply _)
  · dsimp only at h3; subst h3
    refine (row3_apply x0 x1 _ l).trans ?_
    refine (congrArg (· + inc x0 x1 3 l) ?_).trans (zero_add _)
    refine (readCov_row (Val := Elt Ideal) arg5.view _ 3 hr inb_S8x128_S1x128_3_0 l).trans ?_
    refine (read_skip_row (Val := Elt Ideal) arg5.view _ 2 inb_S8x128_S1x128_2_0 _ _ ⟨3, hr⟩ l (by show (3 : ℕ) ≠ _; omega)).trans ?_
    refine (read_skip_row (Val := Elt Ideal) arg5.view _ 1 inb_S8x128_S1x128_1_0 _ _ ⟨3, hr⟩ l (by show (3 : ℕ) ≠ _; omega)).trans ?_
    refine (read_skip_row (Val := Elt Ideal) arg5.view _ 0 inb_S8x128_S1x128_0_0 _ _ ⟨3, hr⟩ l (by show (3 : ℕ) ≠ _; omega)).trans ?_
    exact (read_whole (Val := Elt Ideal) arg5.view _ inb_S8x128_S8x128_0_0 _ [] ⟨3, hr⟩ l).trans (pay6_apply _)
  · dsimp only at h4; subst h4
    refine (row4_apply x0 x1 _ l).trans ?_
    refine (congrArg (· + inc x0 x1 4 l) ?_).trans (zero_add _)
    refine (readCov_row (Val := Elt Ideal) arg5.view _ 4 hr inb_S8x128_S1x128_4_0 l).trans ?_
    refine (read_skip_row (Val := Elt Ideal) arg5.view _ 3 inb_S8x128_S1x128_3_0 _ _ ⟨4, hr⟩ l (by show (4 : ℕ) ≠ _; omega)).trans ?_
    refine (read_skip_row (Val := Elt Ideal) arg5.view _ 2 inb_S8x128_S1x128_2_0 _ _ ⟨4, hr⟩ l (by show (4 : ℕ) ≠ _; omega)).trans ?_
    refine (read_skip_row (Val := Elt Ideal) arg5.view _ 1 inb_S8x128_S1x128_1_0 _ _ ⟨4, hr⟩ l (by show (4 : ℕ) ≠ _; omega)).trans ?_
    refine (read_skip_row (Val := Elt Ideal) arg5.view _ 0 inb_S8x128_S1x128_0_0 _ _ ⟨4, hr⟩ l (by show (4 : ℕ) ≠ _; omega)).trans ?_
    exact (read_whole (Val := Elt Ideal) arg5.view _ inb_S8x128_S8x128_0_0 _ [] ⟨4, hr⟩ l).trans (pay6_apply _)
  · dsimp only at h0 h1 h2 h3 h4
    rw [inc_high x0 x1 ⟨r, hr⟩ (by show 5 ≤ r; omega) l]
    exact (read_whole (Val := Elt Ideal) VS0_0 _ inb_S8x128_S8x128_0_0 _ [] ⟨r, hr⟩ l).trans (pay6_apply _)

end Cert.KernelIdeal.Pieces

end
-- ==== Proof.Accum.lean ====
/-
  The accumulator over the grid.

  The grid's 64 points run in order; point `n` belongs to half `n / 32` and is step `n % 32` of it. After point `n`
  the accumulator holds, at every row and lane, the sum of the tile sums of the points of `n`'s half up to `n`; at
  the last point of a half the output block is left holding the same, so it is the half's sum over its 32 tiles.
-/
import proofs.«136390_j37366215475814_2_alg».proof.Proof.Pieces

set_option maxRecDepth 16384

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Tile Cert.KernelIdeal.Pieces

variable (m : (ℓ : Loc nD τ sig) → Buf (Elt Ideal) ℓ)

/-- Point `j`'s tile sums (zero past the grid's last point). -/
def incAt (c : Dev nD) (j : ℕ) (r : Fin 8) (l : Fin 128) : EReal :=
  if h : j < cfg0.N then inc (iblk m c 0 ⟨j, h⟩) (iblk m c 1 ⟨j, h⟩) r l else 0

theorem incAt_of_lt (c : Dev nD) (j : ℕ) (h : j < cfg0.N) (r : Fin 8) (l : Fin 128) :
    incAt m c j r l = inc (iblk m c 0 ⟨j, h⟩) (iblk m c 1 ⟨j, h⟩) r l := dif_pos h

/-- After point `n` the accumulator holds the tile sums of its half's points up to `n`, added up. -/
theorem scratch_eq (c : Dev nD) (r : Fin 8) (l : Fin 128) : ∀ (n : ℕ) (h : n < cfg0.N),
    (outsAt0 m c n h).2 (ix2 r l) = ∑ j ∈ Finset.range (n % 32 + 1), incAt m c (n - n % 32 + j) r l
  | 0, h => by
    rw [outsAt0_A m c ⟨0, h⟩ rfl (by show ¬(0 : ℕ) % 32 = 31; omega)]
    dsimp only
    refine (scratch_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩) r l).trans ?_
    rw [show (0 : ℕ) % 32 + 1 = 1 from rfl, Finset.sum_range_one]
    exact (incAt_of_lt m c 0 h r l).symm
  | n + 1, h => by
    have hN : cfg0.N = 64 := N_0
    by_cases h0 : (n + 1) % 32 = 0
    · have h1 : ¬(n + 1) % 32 = 31 := by omega
      rw [outsAt0_A m c ⟨n + 1, h⟩ h0 h1]
      dsimp only
      refine (scratch_A c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) r l).trans ?_
      rw [h0, Finset.sum_range_one, Nat.sub_zero]
      exact (incAt_of_lt m c (n + 1) h r l).symm
    · have ih := scratch_eq c r l n (Nat.lt_of_succ_lt h)
      have hm : (n + 1) % 32 = n % 32 + 1 := by omega
      have hs : n + 1 - (n % 32 + 1) = n - n % 32 := by omega
      have hlast : n - n % 32 + (n % 32 + 1) = n + 1 := by omega
      by_cases h1 : (n + 1) % 32 = 31
      · rw [outsAt0_C m c ⟨n + 1, h⟩ h0 h1]
        dsimp only
        refine (scratch_C c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) _ r l).trans ?_
        rw [hm, hs, Finset.sum_range_succ, hlast, incAt_of_lt m c (n + 1) h r l]
        exact congrArg (· + inc (iblk m c 0 ⟨n + 1, h⟩) (iblk m c 1 ⟨n + 1, h⟩) r l) ih
      · rw [outsAt0_B m c ⟨n + 1, h⟩ h0 h1]
        dsimp only
        refine (scratch_B c (grid0.coords ⟨n + 1, h⟩) (ms0_0 ⟨n + 1, h⟩) (hs0_0 ⟨n + 1, h⟩) (ms0_1 ⟨n + 1, h⟩)
          (hs0_1 ⟨n + 1, h⟩) (ms0_2 ⟨n + 1, h⟩) (hs0_2 ⟨n + 1, h⟩) scM0_0 (Memref.isWhole_whole _) _ _
          (iblk m c 0 ⟨n + 1, h⟩) (iblk m c 1 ⟨n + 1, h⟩) _ r l).trans ?_
        rw [hm, hs, Finset.sum_range_succ, hlast, incAt_of_lt m c (n + 1) h r l]
        exact congrArg (· + inc (iblk m c 0 ⟨n + 1, h⟩) (iblk m c 1 ⟨n + 1, h⟩) r l) ih

/-- At the last point of a half the output block holds what the accumulator holds. -/
theorem out_eq (c : Dev nD) (r : Fin 8) (l : Fin 128) (t : Fin cfg0.N) (h1 : t.val % 32 = 31) :
    (outsAt0 m c t.val t.isLt).1 (ix3 0 r l) = (outsAt0 m c t.val t.isLt).2 (ix2 r l) := by
  have h0 : ¬t.val % 32 = 0 := by omega
  rw [outsAt0_C m c t h0 h1]
  dsimp only
  exact out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2 r l

/-- So at the last point of half `p` the output block holds the half's sum over its 32 tiles. -/
theorem out_half (c : Dev nD) (r : Fin 8) (l : Fin 128) (t : Fin cfg0.N) (h1 : t.val % 32 = 31) :
    (outsAt0 m c t.val t.isLt).1 (ix3 0 r l) = ∑ k : Fin 32, incAt m c (t.val - 31 + k.val) r l := by
  rw [out_eq m c r l t h1, scratch_eq m c r l t.val t.isLt, h1, Finset.sum_range]

end Cert.KernelIdeal.Accum

end
-- ==== Proof.KArray.lean ====
/-
  The kernel's result array, and its tiles as pieces of the two argument arrays.

  The 2 by 8 by 128 array the grid writes holds, at half `p`, row `r`, lane `l`, the sum over the half's 32 tiles of
  the tile sums; the half's last point writes block `p`, and the two blocks fill the array. Tile `t` of the scores (of
  the labels) is rows `2048 t` to `2048 t + 2047` of the flat argument re-laid 131072 by 128, that is entries
  `(2048 t + k) * 128 + l` of the flat argument.
-/
import proofs.«136390_j37366215475814_2_alg».proof.Proof.Accum
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KArray

open Cert.KernelIdeal Cert.KernelIdeal.Gen Cert.KernelIdeal.Tile Cert.KernelIdeal.Accum

variable (m : (ℓ : Loc nD τ sig) → Buf (Elt Ideal) ℓ)

/-- The half sums: what the result array holds at `(p, r, l)`. -/
def halves (c : Dev nD) : S2x8x128.Idx → EReal :=
  fun i => ∑ k : Fin 32, incAt m c (32 * (i 0).val + k.val) (i 1) (i 2)

/-- The printed index maps over the grid: tile `t` of either input is block row `t`, and point `t` writes block
    `t / 32` of the result. -/
theorem idx_facts : ∀ t : Fin cfg0.N, win0_2.index t (0 : Fin 3) = t.val / 32 ∧ win0_2.index t (1 : Fin 3) = 0
    ∧ win0_2.index t (2 : Fin 3) = 0 ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What a half's last point writes back is its block of the half sums. -/
theorem flushed_eq (c : Dev nD) (t : Fin cfg0.N) (hf : (cfg0.win 2).flush t = true) :
    (dats m 0 c).flushed 2 t = ((cfg0.win 2).blk t).view.read (Elt Ideal) (halves m c) := by
  have hN : cfg0.N = 64 := N_0
  have h31 : t.val % 32 = 31 := (flush0_2 t).mp hf
  obtain ⟨e0, e1, e2, -, -, -, -⟩ := idx_facts t
  show (cfg0.win 2).cut (grid0.coords t) ((dats m 0 c).after 2 t) = _
  rw [after0_2]
  funext y
  obtain ⟨a, r, l, rfl⟩ : ∃ (a : Fin 1) (r : Fin 8) (l : Fin 128), y = ix3 a r l := ⟨y 0, y 1, y 2, eq_ix3 y⟩
  obtain rfl : a = 0 := Subsingleton.elim _ _
  have ht : t.val / 32 < 2 := by have := t.isLt; omega
  have he : ((cfg0.win 2).blk t).view.emb (ix3 (0 : Fin 1) r l) = (ix3 ⟨t.val / 32, ht⟩ r l : S2x8x128.Idx) := by
    funext a; apply Fin.ext
    match a with
    | ⟨0, _⟩ => show win0_2.index t (0 : Fin 3) * 1 + 1 * 0 = t.val / 32; omega
    | ⟨1, _⟩ => show win0_2.index t (1 : Fin 3) * 8 + 1 * r.val = r.val; omega
    | ⟨2, _⟩ => show win0_2.index t (2 : Fin 3) * 128 + 1 * l.val = l.val; omega
  show (outsAt0 m c t.val t.isLt).1 (ix3 0 r l) = halves m c (((cfg0.win 2).blk t).view.emb (ix3 (0 : Fin 1) r l))
  rw [he, out_half m c r l t h31]
  show _ = ∑ k : Fin 32, incAt m c (32 * (t.val / 32) + k.val) r l
  rw [show 32 * (t.val / 32) = t.val - 31 from by omega]

/-- An index of the result array is in point `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v2).slice (win0_2.rect t)).set ↔ _
  rw [View.set_slice_whole, Rect.mem_set_unit]
  exact Iff.rfl

/-- The two halves' blocks fill the result array. -/
theorem cover (i : S2x8x128.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 8 := (i 1).isLt
  have h2 : (i 2).val < 128 := (i 2).isLt
  have hlt : 32 * (i 0).val + 31 < cfg0.N := by rw [hN]; omega
  refine ⟨⟨32 * (i 0).val + 31, hlt⟩, (flush0_2 _).mpr (by show (32 * (i 0).val + 31) % 32 = 31; omega), ?_⟩
  rw [mem_blk]
  obtain ⟨e0, e1, e2, -, -, -, -⟩ := idx_facts ⟨32 * (i 0).val + 31, hlt⟩
  have e0' : win0_2.index ⟨32 * (i 0).val + 31, hlt⟩ (0 : Fin 3) = (i 0).val := by
    rw [e0]; show (32 * (i 0).val + 31) / 32 = (i 0).val; omega
  intro a
  match a with
  | ⟨0, _⟩ =>
    show win0_2.index _ (0 : Fin 3) * 1 ≤ (i 0).val ∧ (i 0).val < win0_2.index _ (0 : Fin 3) * 1 + 1
    rw [e0']; omega
  | ⟨1, _⟩ =>
    show win0_2.index _ (1 : Fin 3) * 8 ≤ (i 1).val ∧ (i 1).val < win0_2.index _ (1 : Fin 3) * 8 + 8
    rw [e1]; omega
  | ⟨2, _⟩ =>
    show win0_2.index _ (2 : Fin 3) * 128 ≤ (i 2).val ∧ (i 2).val < win0_2.index _ (2 : Fin 3) * 128 + 128
    rw [e2]; omega

/-- The result array after the grid: the half sums. -/
theorem final (c : Dev nD) : (dats m 0 c).arrAt 2 cfg0.N = halves m c :=
  (dats m 0 c).arrAt_eq_of_cover 2 (halves m c) (fun t hf => flushed_eq m c t hf) (cover)

end Cert.KernelIdeal.KArray

end
-- ==== Proof.HostTail.lean ====
/-
  After the grid: from the half sums to the risk.

  The host adds the two halves and then the 128 lanes of each accumulator row, takes rows 0 to 4 as the five sums
  (positive weights, negative weights, logistics, and the two weights times the logistic), recovers the other two sums
  and the unlabeled weight by subtraction — the weights add to one at every example, of which there are `2^24`, and the
  logistic at the negated score is one minus the logistic — and forms the risk.
-/
import proofs.«136390_j37366215475814_2_alg».proof.Proof.Gen.KernelIdeal
import proofs.«136390_j37366215475814_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.HostTail

open Cert.KernelIdeal Cert.KernelIdeal.Facts₀

abbrev Halves := FVec Ideal S2x8x128 .f32
abbrev Rows := FVec Ideal S8 .f32
abbrev Ratios := FVec Ideal S2 .f32
abbrev Scal := FVec Ideal S_ .f32

/-- The words for `1`, `1/2`, `0` and `2^24`. -/
abbrev one : EReal := Ideal.ofBits .f32 0x3F800000#32
abbrev half : EReal := Ideal.ofBits .f32 0x3F000000#32
abbrev zero : EReal := Ideal.ofBits .f32 0x00000000#32
abbrev big : EReal := Ideal.ofBits .f32 0x4B800000#32

/-- The eight row totals: the halves added, then the lanes. -/
def rows (Pv : Halves) : Rows :=
  Host.reduceAdd (F := Ideal) (Host.reduceAdd (F := Ideal) Pv (constant (F := Ideal) S_ .f32 0x00000000#32) reducesTo_S2x8x128_S8x128_d0 h_S_)
    (constant (F := Ideal) S_ .f32 0x00000000#32) reducesTo_S8x128_S8_d1 h_S_

/-- A row total at row `r`: from zero, the sum over the lanes of, from zero, the sum over the two halves. -/
theorem rows_apply (Pv : Halves) (r : Fin 8) :
    rows Pv (ix1 r) = zero + ∑ l : Fin 128, (zero + ∑ p : Fin 2, Pv (ix3 p r l)) := by
  unfold rows
  simp only [Host.reduceAdd, Ideal.hostReduceAdd_def]
  rw [Ideal.hostReduceAdd_single reducesTo_S8x128_S8_d1 (by decide) _ _ (ix1 r)]
  refine congrArg (zero + ·) (Finset.sum_congr rfl fun l _ => ?_)
  rw [Ideal.hostReduceAdd_single reducesTo_S2x8x128_S8x128_d0 (by decide)]
  refine congrArg (zero + ·) (Finset.sum_congr rfl fun p _ => congrArg Pv ?_)
  funext a
  match a with
  | ⟨0, _⟩ => rfl
  | ⟨1, _⟩ => rfl
  | ⟨2, _⟩ => rfl

/-- A one-element array has one index. -/
theorem one_idx (k : S1.Idx) : k = ix1 (0 : Fin 1) := by
  funext d
  match d with
  | ⟨0, _⟩ => exact Subsingleton.elim (α := Fin 1) _ _

/-- Entry `k` of a vector, sliced out and re-laid as a scalar. -/
theorem pick_apply {n : Nat} (v : (⟨1, ![n]⟩ : Shape).Idx → EReal) (k : Nat) (hk : k < n)
    (hs : (⟨1, ![n]⟩ : Shape).Slices ![k] S1) (hc : S1.ShapeCasts S_) (i : S_.Idx) :
    shapeCast S_ (extractStridedSlice S1 ![k] v hs) hc i = v (ix1 ⟨k, hk⟩) := by
  unfold shapeCast
  rw [one_idx (Shape.reshapeEquiv _ i)]
  exact extractStridedSlice_apply ![k] v hs (ix1 0) (ix1 ⟨k, hk⟩) (fun a => by
    match a with
    | ⟨0, _⟩ => show k = k + 0; omega)

/-- The host's lines after the grid, as one function of the half sums and the class ratios. -/
def tailFn (Pv : Halves) (x2 : Ratios) : Scal :=
  let v4 : Rows := rows Pv
  let v6 : Scal := shapeCast S_ (extractStridedSlice S1 ![0] v4 slices_S8_S1_0) shapeCasts_S1_S_
  let v8 : Scal := shapeCast S_ (extractStridedSlice S1 ![1] v4 slices_S8_S1_1) shapeCasts_S1_S_
  let v10 : Scal := shapeCast S_ (extractStridedSlice S1 ![2] v4 slices_S8_S1_2) shapeCasts_S1_S_
  let v12 : Scal := shapeCast S_ (extractStridedSlice S1 ![3] v4 slices_S8_S1_3) shapeCasts_S1_S_
  let v14 : Scal := shapeCast S_ (extractStridedSlice S1 ![4] v4 slices_S8_S1_4) shapeCasts_S1_S_
  let v15 : Scal := subf (F := Ideal) (constant (F := Ideal) S_ .f32 0x4B800000#32) v6
  let v16 : Scal := subf (F := Ideal) v15 v8
  let v17 : Scal := subf (F := Ideal) v10 v12
  let v18 : Scal := subf (F := Ideal) v17 v14
  let v19 : Scal := subf (F := Ideal) v6 v12
  let v20 : Scal := maximumf (F := Ideal) (constant (F := Ideal) S_ .f32 0x3F800000#32) v6
  let v21 : Scal := maximumf (F := Ideal) (constant (F := Ideal) S_ .f32 0x3F800000#32) v8
  let v22 : Scal := maximumf (F := Ideal) (constant (F := Ideal) S_ .f32 0x3F800000#32) v16
  let v23 : Scal := Host.divf (F := Ideal) v19 v20
  let v24 : Scal := Host.divf (F := Ideal) v12 v20
  let v25 : Scal := Host.divf (F := Ideal) v14 v21
  let v26 : Scal := Host.divf (F := Ideal) v18 v22
  let v28 : Scal := shapeCast S_ (extractStridedSlice S1 ![0] x2 slices_S2_S1_0) shapeCasts_S1_S_
  let v29 : Scal := mulf (F := Ideal) v28 v23
  let v31 : Scal := shapeCast S_ (extractStridedSlice S1 ![1] x2 slices_S2_S1_1) shapeCasts_S1_S_
  let v32 : Scal := mulf (F := Ideal) v31 v25
  let v33 : Scal := addf (F := Ideal) v29 v32
  let v35 : Scal := shapeCast S_ (extractStridedSlice S1 ![0] x2 slices_S2_S1_0) shapeCasts_S1_S_
  let v36 : Scal := subf (F := Ideal) v23 v24
  let v37 : Scal := mulf (F := Ideal) v35 v36
  let v38 : Scal := addf (F := Ideal) v37 v26
  let v39 : Scal := mulf (F := Ideal) (constant (F := Ideal) S_ .f32 0x3F000000#32) v33
  let v40 : Scal := mulf (F := Ideal) (constant (F := Ideal) S_ .f32 0x3F000000#32) v38
  addf (F := Ideal) v39 v40

/-- The host's result is the risk of the five row totals, the other two sums and the unlabeled weight recovered
    from them by subtraction. -/
theorem tail_apply (Pv : Halves) (x2 : Ratios) (i : S_.Idx) :
    tailFn Pv x2 i
      = PNU.risk one half (rows Pv (ix1 0)) (rows Pv (ix1 1)) (big - rows Pv (ix1 0) - rows Pv (ix1 1))
          (rows Pv (ix1 0) - rows Pv (ix1 3)) (rows Pv (ix1 3)) (rows Pv (ix1 4))
          (rows Pv (ix1 2) - rows Pv (ix1 3) - rows Pv (ix1 4)) (x2 (ix1 0)) (x2 (ix1 1)) := by
  have e0 := pick_apply (rows Pv) 0 (by decide) slices_S8_S1_0 shapeCasts_S1_S_ i
  have e1 := pick_apply (rows Pv) 1 (by decide) slices_S8_S1_1 shapeCasts_S1_S_ i
  have e2 := pick_apply (rows Pv) 2 (by decide) slices_S8_S1_2 shapeCasts_S1_S_ i
  have e3 := pick_apply (rows Pv) 3 (by decide) slices_S8_S1_3 shapeCasts_S1_S_ i
  have e4 := pick_apply (rows Pv) 4 (by decide) slices_S8_S1_4 shapeCasts_S1_S_ i
  have p0 := pick_apply x2 0 (by decide) slices_S2_S1_0 shapeCasts_S1_S_ i
  have p1 := pick_apply x2 1 (by decide) slices_S2_S1_1 shapeCasts_S1_S_ i
  unfold tailFn PNU.risk
  show half * (shapeCast S_ (extractStridedSlice S1 ![0] x2 slices_S2_S1_0) shapeCasts_S1_S_ i
          * Ideal.div (shapeCast S_ (extractStridedSlice S1 ![0] (rows Pv) slices_S8_S1_0) shapeCasts_S1_S_ i
              - shapeCast S_ (extractStridedSlice S1 ![3] (rows Pv) slices_S8_S1_3) shapeCasts_S1_S_ i)
            (max one (shapeCast S_ (extractStridedSlice S1 ![0] (rows Pv) slices_S8_S1_0) shapeCasts_S1_S_ i))
        + shapeCast S_ (extractStridedSlice S1 ![1] x2 slices_S2_S1_1) shapeCasts_S1_S_ i
          * Ideal.div (shapeCast S_ (extractStridedSlice S1 ![4] (rows Pv) slices_S8_S1_4) shapeCasts_S1_S_ i)
            (max one (shapeCast S_ (extractStridedSlice S1 ![1] (rows Pv) slices_S8_S1_1) shapeCasts_S1_S_ i)))
      + half * (shapeCast S_ (extractStridedSlice S1 ![0] x2 slices_S2_S1_0) shapeCasts_S1_S_ i
          * (Ideal.div (shapeCast S_ (extractStridedSlice S1 ![0] (rows Pv) slices_S8_S1_0) shapeCasts_S1_S_ i
                - shapeCast S_ (extractStridedSlice S1 ![3] (rows Pv) slices_S8_S1_3) shapeCasts_S1_S_ i)
              (max one (shapeCast S_ (extractStridedSlice S1 ![0] (rows Pv) slices_S8_S1_0) shapeCasts_S1_S_ i))
            - Ideal.div (shapeCast S_ (extractStridedSlice S1 ![3] (rows Pv) slices_S8_S1_3) shapeCasts_S1_S_ i)
              (max one (shapeCast S_ (extractStridedSlice S1 ![0] (rows Pv) slices_S8_S1_0) shapeCasts_S1_S_ i)))
          + Ideal.div (shapeCast S_ (extractStridedSlice S1 ![2] (rows Pv) slices_S8_S1_2) shapeCasts_S1_S_ i
                - shapeCast S_ (extractStridedSlice S1 ![3] (rows Pv) slices_S8_S1_3) shapeCasts_S1_S_ i
                - shapeCast S_ (extractStridedSlice S1 ![4] (rows Pv) slices_S8_S1_4) shapeCasts_S1_S_ i)
              (max one (big - shapeCast S_ (extractStridedSlice S1 ![0] (rows Pv) slices_S8_S1_0) shapeCasts_S1_S_ i
                - shapeCast S_ (extractStridedSlice S1 ![1] (rows Pv) slices_S8_S1_1) shapeCasts_S1_S_ i))) = _
  rw [e0, e1, e2, e3, e4, p0, p1]
  rfl

end Cert.KernelIdeal.HostTail

end
-- ==== Proof.KRun.lean ====
/-
  The idealized kernel's run, read: its result is the host's function of the half sums and the class ratios, and its
  three arguments end as they began.
-/
import proofs.«136390_j37366215475814_2_alg».proof.Proof.KArray
import proofs.«136390_j37366215475814_2_alg».proof.Proof.HostTail
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.KArray Cert.KernelIdeal.HostTail

variable (m : (ℓ : Loc nD τ sig) → Buf (Elt Ideal) ℓ) (ρ : Dev nD → PrngReg)

/-- After the grid the result array holds the half sums, -/
theorem arr_v2 (c : Dev nD) :
    Pipeline.withArrays (cfgs 0).spec c (V0 m c) (fun w => (dats m 0 c).arrAt w (cfgs 0).N) (Proc.devRef .tc main_v2)
      = halves m c :=
  (Pipeline.withArrays_arr spec0 launch0.win.arr_inj c _ _ 2).trans (final m c)

/-- and the class ratios are as launched. -/
theorem arr_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2
    (by exact (by decide : ∀ w, Pipeline.arrRef spec0 w ≠ main_arg2))).trans (V_main_arg2 m c)

set_option maxHeartbeats 20000000 in
/-- The host's lines after the grid leave the result at their function of the half sums and the class ratios. -/
theorem tail_run (c : Dev nD) :
    Pipeline.afterTail₀ cfgs (dats m) 0 (V0 m) [hostOps1] c main_v41
      = tailFn (halves m c) (m ((c : Thread nD τ).loc main_arg2)) := by
  unfold Pipeline.afterTail₀
  show StableHlo.after hostOps1 _ (Proc.devRef .tc main_v41) = _
  after_results_simp
  simp only [arr_v2 m c, arr_arg2 m c]
  rfl

/-- THE RUN: every weakly fair execution terminates with the result at the host's function of the half sums and the
    class ratios, and the arguments unchanged. -/
theorem run : θ_run defs (onTc (τ := τ) (main (F := Ideal))) ⟨m, fun _ => 0, ρ⟩ fun r => ∀ c : Dev nD,
      r.2.mem ((c.tc : Thread nD τ).loc main_v41) = tailFn (halves m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v41 (Pipeline.mem_restRefs_of main_v41 (by decide) (by decide))).trans (tail_run m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.KTiles.lean ====
/-
  The tiles as pieces of the flat arguments.

  Before the grid runs the two flat arguments of 16777216 entries are re-laid as 131072 rows of 128 lanes; tile `t`
  is rows `2048 t` to `2048 t + 2047` of that array, so its entry `(k, l)` is entry `(2048 t + k) * 128 + l` of the
  flat argument, and a point's tile sums are sums of the per-element terms over those entries.
-/
import proofs.«136390_j37366215475814_2_alg».proof.Proof.KArray
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.KTiles

open Cert.KernelIdeal Cert.KernelIdeal.Gen Cert.KernelIdeal.Tile Cert.KernelIdeal.Accum Cert.KernelIdeal.KArray

variable (m : (ℓ : Loc nD τ sig) → Buf (Elt Ideal) ℓ)

/-- The scores as the grid finds them: the flat argument re-laid 131072 by 128. -/
theorem scores_relaid (c : Dev nD) : (V m c main_v0 : S131072x128.Idx → Elt Ideal .f32)
    = shapeCast S131072x128 (m ((c : Thread nD τ).loc main_arg0)) shapeCasts_S16777216_S131072x128 := by
  show StableHlo.after hostOps0 (fun b => m (c, b)) (Proc.devRef .tc main_v0) = _
  after_results
  rfl

/-- The labels as the grid finds them: the flat argument re-laid 131072 by 128. -/
theorem labels_relaid (c : Dev nD) : (V m c main_v1 : S131072x128.Idx → Elt Ideal .i32)
    = shapeCast S131072x128 (m ((c : Thread nD τ).loc main_arg1)) shapeCasts_S16777216_S131072x128 := by
  show StableHlo.after hostOps0 (fun b => m (c, b)) (Proc.devRef .tc main_v1) = _
  after_results
  rfl

/-- Entry `(k, l)` of tile `t`, as a position in the flat arguments. -/
def flat (t : Fin cfg0.N) (k : Fin 2048) (l : Fin 128) : S16777216.Idx :=
  ix1 ⟨(2048 * t.val + k.val) * 128 + l.val, by
    have hN : cfg0.N = 64 := N_0
    have := t.isLt; have := k.isLt; have := l.isLt
    omega⟩

/-- Tile `t` of the scores at `(k, l)`. -/
theorem scores_tile (c : Dev nD) (t : Fin cfg0.N) (k : Fin 2048) (l : Fin 128) :
    (iblk m c 0 t : Vec Ideal S2048x128 .f32) (ix2 k l) = m ((c : Thread nD τ).loc main_arg0) (flat t k l) := by
  obtain ⟨-, -, -, e3, e4, -, -⟩ := idx_facts t
  unfold iblk
  rw [View.read_apply]
  show V m c main_v0 (((cfg0.win 0).blk t).view.emb (ix2 k l)) = _
  refine (congrFun (scores_relaid m c) _).trans ?_
  refine shapeCast_apply _ _ _ (flat t k l) ?_
  rw [Shape.rowMajor_val_one, Shape.rowMajor_val_two]
  show (2048 * t.val + k.val) * 128 + l.val
    = (win0_0.index t (0 : Fin 2) * 2048 + 1 * k.val) * 128 + (win0_0.index t (1 : Fin 2) * 128 + 1 * l.val)
  rw [e3, e4]
  omega

/-- Tile `t` of the labels at `(k, l)`. -/
theorem labels_tile (c : Dev nD) (t : Fin cfg0.N) (k : Fin 2048) (l : Fin 128) :
    (iblk m c 1 t : Vec Ideal S2048x128 .i32) (ix2 k l) = m ((c : Thread nD τ).loc main_arg1) (flat t k l) := by
  obtain ⟨-, -, -, -, -, e5, e6⟩ := idx_facts t
  unfold iblk
  rw [View.read_apply]
  show V m c main_v1 (((cfg0.win 1).blk t).view.emb (ix2 k l)) = _
  refine (congrFun (labels_relaid m c) _).trans ?_
  refine shapeCast_apply _ _ _ (flat t k l) ?_
  rw [Shape.rowMajor_val_one, Shape.rowMajor_val_two]
  show (2048 * t.val + k.val) * 128 + l.val
    = (win0_1.index t (0 : Fin 2) * 2048 + 1 * k.val) * 128 + (win0_1.index t (1 : Fin 2) * 128 + 1 * l.val)
  rw [e5, e6]
  omega

/-- A point's tile sums, over the flat arguments. -/
theorem incAt_flat (c : Dev nD) (t : Fin cfg0.N) (r : Fin 8) (l : Fin 128) :
    incAt m c t.val r l = ∑ k : Fin 2048, term r (m ((c : Thread nD τ).loc main_arg0) (flat t k l))
      (lab (m ((c : Thread nD τ).loc main_arg1) (flat t k l))) := by
  rw [incAt_of_lt m c t.val t.isLt r l]
  unfold inc
  refine Finset.sum_congr rfl fun k _ => ?_
  rw [scores_tile m c ⟨t.val, t.isLt⟩ k l, labels_tile m c ⟨t.val, t.isLt⟩ k l]

end Cert.KernelIdeal.KTiles

end
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.Reindex.lean ====
/-
  The 16777216 examples as the kernel walks them.

  Position `n` of the flat arrays is lane `l = n % 128` of row `n / 128` of the re-laid array; row `R` is row
  `q = R % 2048` of tile `R / 2048`; tile `t` is step `k = t % 32` of half `p = t / 32`. So a sum over all positions is
  the sum over lanes, halves, steps and tile rows of the term at position `(2048 (32 p + k) + q) * 128 + l`.
-/
import proofs.«136390_j37366215475814_2_alg».proof.Proof.LibTileSum
import Idealize.ShloMosaic.Lib.ValueIdx

noncomputable section

open scoped BigOperators

namespace PNU.Reindex

open Idealize.ShloMosaic Idealize.ShloMosaic.ValueIdx Cert.LibTileSum

variable {M : Type*} [AddCommMonoid M]

/-- A rank-1 index is its one coordinate. -/
def idx1Equiv (n : Nat) : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 (n : Nat) (f : (⟨1, ![n]⟩ : Shape).Idx → M) : ∑ j, f j = ∑ a : Fin n, f (ix1 a) :=
  (Equiv.sum_comp (idx1Equiv n).symm f).symm

/-- A rank-1 index set of extent `n` has `n` elements. -/
theorem card_idx1 (n : Nat) : Fintype.card (⟨1, ![n]⟩ : Shape).Idx = n := by
  rw [Fintype.card_congr (idx1Equiv n), Fintype.card_fin]

/-- The sum over all positions, cut by lane, half, step and tile row. -/
theorem sum_cut (g : ℕ → M) :
    ∑ n : Fin 16777216, g n.val
      = ∑ l : Fin 128, ∑ p : Fin 2, ∑ k : Fin 32, ∑ q : Fin 2048,
          g ((2048 * (32 * p.val + k.val) + q.val) * 128 + l.val) := by
  have h1 : ∑ n : Fin 16777216, g n.val = ∑ R : Fin 131072, ∑ l : Fin 128, g (128 * R.val + l.val) :=
    sum_tiles_mul 131072 128 (fun n => g n.val)
  have h2 : ∀ G : ℕ → M, ∑ R : Fin 131072, G R.val = ∑ t : Fin 64, ∑ q : Fin 2048, G (2048 * t.val + q.val) :=
    fun G => sum_tiles_mul 64 2048 (fun n => G n.val)
  have h3 : ∀ G : ℕ → M, ∑ t : Fin 64, G t.val = ∑ p : Fin 2, ∑ k : Fin 32, G (32 * p.val + k.val) :=
    fun G => sum_tiles_mul 2 32 (fun n => G n.val)
  rw [h1, h2 (fun R => ∑ l : Fin 128, g (128 * R + l.val)),
    h3 (fun t => ∑ q : Fin 2048, ∑ l : Fin 128, g (128 * (2048 * t + q.val) + l.val))]
  refine (Finset.sum_congr rfl fun p _ =>
    (Finset.sum_congr rfl fun k _ => Finset.sum_comm).trans Finset.sum_comm).trans ?_
  refine Finset.sum_comm.trans ?_
  refine Finset.sum_congr rfl fun l _ => Finset.sum_congr rfl fun p _ => Finset.sum_congr rfl fun k _ =>
    Finset.sum_congr rfl fun q _ => congrArg g ?_
  ring

end PNU.Reindex

end
-- ==== Proof.KBridge.lean ====
/-
  The kernel's result is the risk.

  With real scores, every per-element term is a real, so the five row totals are the coerced sums over all 2^24
  examples of: the positive weight, the negative weight, the logistic, and the two weights times the logistic. The three
  identities of the specification turn the host's subtractions into the remaining sums: `2^24` minus the positive and
  negative weights is the summed unlabeled weight; the positive weights minus their products with the logistic are
  their products with the logistic at the negated score; the logistics minus both products are the unlabeled weights'
  products.
-/
import proofs.«136390_j37366215475814_2_alg».proof.Proof.KTiles
import proofs.«136390_j37366215475814_2_alg».proof.Proof.HostTail
import proofs.«136390_j37366215475814_2_alg».proof.Proof.Reindex

set_option maxRecDepth 16384

noncomputable section

open scoped BigOperators
open Idealize.ShloMosaic Idealize.ShloMosaic.TcCoe Idealize.SL.Sem Idealize.ShloMosaic.ValueIdx

namespace Cert.KernelIdeal.KBridge

open Cert.KernelIdeal Cert.KernelIdeal.Gen Cert.KernelIdeal.Tile Cert.KernelIdeal.Accum Cert.KernelIdeal.KArray
open Cert.KernelIdeal.KTiles Cert.KernelIdeal.HostTail

/-- The per-element terms over the reals. -/
def termR (r : Fin 8) (y t : ℝ) : ℝ :=
  if r.val = 0 then max t 0
  else if r.val = 1 then max (-t) 0
  else if r.val = 2 then PNU.sg y
  else if r.val = 3 then max t 0 * PNU.sg y
  else if r.val = 4 then max (-t) 0 * PNU.sg y
  else 0

theorem coe_max0 (t : ℝ) : max (t : EReal) 0 = ((max t 0 : ℝ) : EReal) :=
  (EReal.coe_strictMono.monotone.map_max (a := t) (b := 0)).symm

/-- At real arguments every term is a real. -/
theorem term_coe (r : Fin 8) (y t : ℝ) : term r (y : EReal) (t : EReal) = ((termR r y t : ℝ) : EReal) := by
  have hneg : (0 : EReal) - (t : EReal) = ((-t : ℝ) : EReal) := by rw [zero_sub, EReal.coe_neg]
  have hlog : Ideal.logistic (y : EReal) = ((PNU.sg y : ℝ) : EReal) := Ideal.logistic_coe y
  unfold term termR
  split_ifs <;> simp only [hneg, hlog, coe_max0, ← EReal.coe_mul, EReal.coe_zero]

/-- A finite sum of coerced reals is the coerced sum. -/
theorem coe_sum {ι : Type*} (s : Finset ι) (f : ι → ℝ) :
    (∑ j ∈ s, ((f j : ℝ) : EReal)) = ((∑ j ∈ s, f j : ℝ) : EReal) := by
  classical
  refine Finset.induction_on s ?_ ?_
  · simp
  · intro a s ha ih
    rw [Finset.sum_insert ha, Finset.sum_insert ha, ih, EReal.coe_add]

theorem hpk (p : Fin 2) (k : Fin 32) : 32 * p.val + k.val < cfg0.N := by
  have hN : cfg0.N = 64 := N_0
  have := p.isLt; have := k.isLt
  rw [hN]; omega

/-- A function of the examples extended by zero to every natural number. -/
def ext0 (F : S16777216.Idx → ℝ) (n : ℕ) : ℝ := if h : n < 16777216 then F (ix1 ⟨n, h⟩) else 0

theorem ext0_of_lt (F : S16777216.Idx → ℝ) (n : ℕ) (h : n < 16777216) : ext0 F n = F (ix1 ⟨n, h⟩) := dif_pos h

/-- The kernel's four nested sums run over every example once. -/
theorem total_eq (F : S16777216.Idx → ℝ) :
    ∑ l : Fin 128, ∑ p : Fin 2, ∑ k : Fin 32, ∑ q : Fin 2048, F (flat ⟨32 * p.val + k.val, hpk p k⟩ q l) = ∑ j, F j := by
  symm
  calc ∑ j, F j = ∑ a : Fin 16777216, F (ix1 a) := PNU.Reindex.sum_idx1 16777216 F
    _ = ∑ a : Fin 16777216, ext0 F a.val :=
        Finset.sum_congr rfl fun a _ => (ext0_of_lt F a.val a.isLt).symm
    _ = ∑ l : Fin 128, ∑ p : Fin 2, ∑ k : Fin 32, ∑ q : Fin 2048,
          ext0 F ((2048 * (32 * p.val + k.val) + q.val) * 128 + l.val) :=
        PNU.Reindex.sum_cut (ext0 F)
    _ = _ := Finset.sum_congr rfl fun l _ => Finset.sum_congr rfl fun p _ => Finset.sum_congr rfl fun k _ =>
        Finset.sum_congr rfl fun q _ => by
          have := p.isLt; have := k.isLt; have := q.isLt; have := l.isLt
          exact (ext0_of_lt F _ (by omega)).trans rfl

variable (m : (ℓ : Loc nD τ sig) → Buf (Elt Ideal) ℓ)

/-- With real scores, row `r`'s total is the coerced sum of the row's term over every example. -/
theorem rows_real (c : Dev nD) (yr : S16777216.Idx → ℝ)
    (hy : ∀ j, m ((c : Thread nD τ).loc main_arg0) j = ((yr j : ℝ) : EReal)) (r : Fin 8) :
    rows (halves m c) (ix1 r)
      = ((∑ j, termR r (yr j) (((m ((c : Thread nD τ).loc main_arg1) j).toInt : ℝ)) : ℝ) : EReal) := by
  rw [rows_apply, ← total_eq]
  have hz : zero = 0 := Ideal.ofBits_zero_f32
  rw [hz, zero_add, ← coe_sum]
  refine Finset.sum_congr rfl fun l _ => ?_
  rw [zero_add, ← coe_sum]
  refine Finset.sum_congr rfl fun p _ => ?_
  show ∑ k : Fin 32, incAt m c (32 * p.val + k.val) r l = _
  rw [← coe_sum]
  refine Finset.sum_congr rfl fun k _ => ?_
  rw [incAt_flat m c ⟨32 * p.val + k.val, hpk p k⟩ r l, ← coe_sum]
  refine Finset.sum_congr rfl fun q _ => ?_
  rw [hy]
  exact term_coe r _ _

/-- The word `0x4B800000` denotes `2^24`. -/
theorem big_eq : big = ((16777216 : ℝ) : EReal) := by
  simp [big, Ideal.ofBits, Ideal.ieee, -EReal.coe_mul]; norm_num

/-- THE KERNEL'S VALUE: with real scores, the host's result after the grid is the risk of the scores and labels. -/
theorem kernel_value (c : Dev nD) (yr : S16777216.Idx → ℝ)
    (hy : ∀ j, m ((c : Thread nD τ).loc main_arg0) j = ((yr j : ℝ) : EReal)) (i : S_.Idx) :
    tailFn (halves m c) (m ((c : Thread nD τ).loc main_arg2)) i
      = PNU.G one half yr (fun j => ((m ((c : Thread nD τ).loc main_arg1) j).toInt : ℝ))
          (m ((c : Thread nD τ).loc main_arg2) (ix1 0)) (m ((c : Thread nD τ).loc main_arg2) (ix1 1)) := by
  rw [tail_apply, rows_real m c yr hy 0, rows_real m c yr hy 1, rows_real m c yr hy 2, rows_real m c yr hy 3,
    rows_real m c yr hy 4]
  obtain ⟨hu, ha, hd⟩ := PNU.sums_from_five yr (fun j => ((m ((c : Thread nD τ).loc main_arg1) j).toInt : ℝ))
  have hcard : (Fintype.card S16777216.Idx : ℝ) = 16777216 := by
    rw [PNU.Reindex.card_idx1]; norm_num
  unfold PNU.G
  rw [hu, ha, hd, hcard, big_eq, EReal.coe_sub, EReal.coe_sub, EReal.coe_sub, EReal.coe_sub, EReal.coe_sub]
  rfl

end Cert.KernelIdeal.KBridge

end
-- ==== Proof.RefValue.lean ====
/-
  The value of the reference program.

  The reference computes, from real scores `y j`, integer labels `t j` and two class ratios, the seven sums
  of the positive–negative–unlabeled risk and then one fixed expression in them. Over the extended reals
  every operation is exact, so each per-example term is the coercion of a real number:
  `max t 0`, `max (-t) 0`, `1 - |t|`, the logistic `1 / (1 + exp (-y))` at `y` and at `-y`, and their products.
  A finite sum of coerced reals is the coerced sum. What remains after the sums is literally the expression
  `PNU.risk`, with the constant `1` of the three `max 1 ·` and the constant `1/2` kept as the program spells them.
-/
import proofs.«136390_j37366215475814_2_alg».proof.Proof.Gen.ReferenceIdeal.Read
import proofs.«136390_j37366215475814_2_alg».proof.Proof.Spec
import Idealize.ShloMosaic.Lib.ValueIdx

noncomputable section

open scoped BigOperators

namespace Cert.ReferenceIdeal.RefValue

open Cert.ReferenceIdeal Cert.ReferenceIdeal.Read Idealize.ShloMosaic

/-! ## Coerced reals -/

/-- The word `0x3F800000` denotes `1`. -/
theorem ofBits_one : Ideal.ofBits .f32 0x3F800000#32 = 1 := by
  simp [Ideal.ofBits, Ideal.ieee, -EReal.coe_mul]; norm_num

/-- The coercion of the reals into the extended reals preserves `max`. -/
theorem coe_max (a b : ℝ) : ((max a b : ℝ) : EReal) = max (a : EReal) (b : EReal) :=
  EReal.coe_strictMono.monotone.map_max

/-- A finite sum of coerced reals is the coerced sum. -/
theorem coe_sum {ι : Type*} (s : Finset ι) (f : ι → ℝ) :
    (∑ j ∈ s, ((f j : ℝ) : EReal)) = ((∑ j ∈ s, f j : ℝ) : EReal) := by
  classical
  refine Finset.induction_on s ?_ ?_
  · simp
  · intro a s ha ih
    rw [Finset.sum_insert ha, Finset.sum_insert ha, ih, EReal.coe_add]

/-- The logistic at a real `u`, as the program spells it: `1 / (1 + exp (-u))` with both ones the word for `1`. -/
theorem logistic_at (u : ℝ) :
    Ideal.div (Ideal.ofBits .f32 0x3F800000#32) (Ideal.ofBits .f32 0x3F800000#32 + Ideal.exp (-(u : EReal)))
      = ((PNU.sg u : ℝ) : EReal) := by
  have hne : (1 + Real.exp (-u)) ≠ 0 := by positivity
  rw [ofBits_one, ← EReal.coe_neg, Ideal.exp_coe, ← EReal.coe_one, ← EReal.coe_add, Ideal.div_coe hne,
    ← EReal.coe_mul, one_mul, one_div]
  rfl

/-! ## The reference's per-example terms

`x0` holds the scores, real by hypothesis (`x0 j = y j`); `x1` the labels, read as signed integers. -/

/-- The scores' array type. -/
abbrev Scores := (⟨S16777216, .f32⟩ : BufTy).Contents (Elt Ideal)
/-- The labels' array type. -/
abbrev Labels := (⟨S16777216, .i32⟩ : BufTy).Contents (Elt Ideal)
/-- The class ratios' array type. -/
abbrev Ratios := (⟨S2, .f32⟩ : BufTy).Contents (Elt Ideal)

/-- The label of example `j` as a real number. -/
abbrev lab (x1 : Labels) (j : S16777216.Idx) : ℝ := ((x1 j).toInt : ℝ)

/-- The label converted to a float is the coerced integer. -/
theorem v0_at (x1 : Labels) (j : S16777216.Idx) : val_main_v0 (F := Ideal) x1 j = ((lab x1 j : ℝ) : EReal) := rfl

/-- The positive weight `max t 0`. -/
theorem v2_at (x1 : Labels) (j : S16777216.Idx) :
    val_main_v2 (F := Ideal) x1 j = ((max (lab x1 j) 0 : ℝ) : EReal) := by
  simp only [val_main_v2_apply, val_main_v1_apply, val_main_cst_apply, Ideal.maximumf_def, Ideal.ofBits_def,
    Ideal.ofBits_zero_f32, v0_at]
  rw [coe_max, EReal.coe_zero]

/-- The negative weight `max (-t) 0`. -/
theorem v5_at (x1 : Labels) (j : S16777216.Idx) :
    val_main_v5 (F := Ideal) x1 j = ((max (-(lab x1 j)) 0 : ℝ) : EReal) := by
  simp only [val_main_v5_apply, val_main_v4_apply, val_main_cst_0_apply, val_main_v3_apply, Ideal.maximumf_def,
    Ideal.hostNegf_def, Ideal.negf_def, Ideal.ofBits_def, Ideal.ofBits_zero_f32, v0_at]
  rw [coe_max, EReal.coe_zero, EReal.coe_neg]

/-- The unlabeled weight `1 - |t|`. -/
theorem v8_at (x1 : Labels) (j : S16777216.Idx) :
    val_main_v8 (F := Ideal) x1 j = ((1 - |lab x1 j| : ℝ) : EReal) := by
  simp only [val_main_v8_apply, val_main_v7_apply, val_main_cst_1_apply, val_main_v6_apply, Ideal.subf_def,
    Ideal.hostAbsf_def, Ideal.absf_def, Ideal.ofBits_def, ofBits_one, v0_at]
  rw [abs_eq_max_neg, EReal.coe_sub, EReal.coe_one, coe_max, EReal.coe_neg]

/-- The logistic at the negated score. -/
theorem v15_at (x0 : Scores) (yr : S16777216.Idx → ℝ) (hy : ∀ j, x0 j = ((yr j : ℝ) : EReal)) (j : S16777216.Idx) :
    val_main_v15 (F := Ideal) x0 j = ((PNU.sg (-(yr j)) : ℝ) : EReal) := by
  simp only [val_main_v15_apply, val_main_v14_apply, val_main_cst_3_apply, val_main_v13_apply, val_main_v12_apply,
    val_main_cst_2_apply, val_main_v11_apply, val_main_v10_apply, val_main_v9_apply, Ideal.hostDivf_def,
    Ideal.addf_def, Ideal.hostUnary_exp_def, Ideal.hostNegf_def, Ideal.negf_def, Ideal.ofBits_def, hy]
  rw [← EReal.coe_neg, logistic_at]

/-- The logistic at the score. -/
theorem v21_at (x0 : Scores) (yr : S16777216.Idx → ℝ) (hy : ∀ j, x0 j = ((yr j : ℝ) : EReal)) (j : S16777216.Idx) :
    val_main_v21 (F := Ideal) x0 j = ((PNU.sg (yr j) : ℝ) : EReal) := by
  simp only [val_main_v21_apply, val_main_v20_apply, val_main_cst_5_apply, val_main_v19_apply, val_main_v18_apply,
    val_main_cst_4_apply, val_main_v17_apply, val_main_v16_apply, Ideal.hostDivf_def,
    Ideal.addf_def, Ideal.hostUnary_exp_def, Ideal.hostNegf_def, Ideal.negf_def, Ideal.ofBits_def, hy]
  rw [logistic_at]

/-- A positive example's loss at the negated score. -/
theorem v28_at (x0 : Scores) (x1 : Labels) (yr : S16777216.Idx → ℝ) (hy : ∀ j, x0 j = ((yr j : ℝ) : EReal))
    (j : S16777216.Idx) :
    val_main_v28 (F := Ideal) x0 x1 j = ((max (lab x1 j) 0 * PNU.sg (-(yr j)) : ℝ) : EReal) := by
  rw [val_main_v28_apply, Ideal.mulf_def, v2_at, v15_at x0 yr hy, ← EReal.coe_mul]

/-- A positive example's loss at the score. -/
theorem v31_at (x0 : Scores) (x1 : Labels) (yr : S16777216.Idx → ℝ) (hy : ∀ j, x0 j = ((yr j : ℝ) : EReal))
    (j : S16777216.Idx) :
    val_main_v31 (F := Ideal) x0 x1 j = ((max (lab x1 j) 0 * PNU.sg (yr j) : ℝ) : EReal) := by
  rw [val_main_v31_apply, Ideal.mulf_def, v2_at, v21_at x0 yr hy, ← EReal.coe_mul]

/-- A negative example's loss at the score. -/
theorem v34_at (x0 : Scores) (x1 : Labels) (yr : S16777216.Idx → ℝ) (hy : ∀ j, x0 j = ((yr j : ℝ) : EReal))
    (j : S16777216.Idx) :
    val_main_v34 (F := Ideal) x0 x1 j = ((max (-(lab x1 j)) 0 * PNU.sg (yr j) : ℝ) : EReal) := by
  rw [val_main_v34_apply, Ideal.mulf_def, v5_at, v21_at x0 yr hy, ← EReal.coe_mul]

/-- An unlabeled example's loss at the score. -/
theorem v37_at (x0 : Scores) (x1 : Labels) (yr : S16777216.Idx → ℝ) (hy : ∀ j, x0 j = ((yr j : ℝ) : EReal))
    (j : S16777216.Idx) :
    val_main_v37 (F := Ideal) x0 x1 j = (((1 - |lab x1 j|) * PNU.sg (yr j) : ℝ) : EReal) := by
  rw [val_main_v37_apply, Ideal.mulf_def, v8_at, v21_at x0 yr hy, ← EReal.coe_mul]

/-! ## The seven sums

Each is `0 + ∑ j, term j` with every term a coerced real. -/

/-- `0` plus a sum of terms that are coerced reals is the coerced sum. -/
theorem zero_add_sum (f : S16777216.Idx → EReal) (g : S16777216.Idx → ℝ) (h : ∀ j, f j = ((g j : ℝ) : EReal)) :
    Ideal.ofBits .f32 0x00000000#32 + ∑ j : S16777216.Idx, f j = ((∑ j, g j : ℝ) : EReal) := by
  rw [Ideal.ofBits_zero_f32, zero_add, Finset.sum_congr rfl (fun j _ => h j), coe_sum]

/-- The summed positive weights. -/
theorem v22_at (x1 : Labels) (i : S_.Idx) :
    val_main_v22 (F := Ideal) x1 i = ((∑ j, max (lab x1 j) 0 : ℝ) : EReal) := by
  rw [val_main_v22_apply, val_main_cst_6_apply, Ideal.ofBits_def]
  exact zero_add_sum _ _ (v2_at x1)

/-- The summed negative weights. -/
theorem v24_at (x1 : Labels) (i : S_.Idx) :
    val_main_v24 (F := Ideal) x1 i = ((∑ j, max (-(lab x1 j)) 0 : ℝ) : EReal) := by
  rw [val_main_v24_apply, val_main_cst_8_apply, Ideal.ofBits_def]
  exact zero_add_sum _ _ (v5_at x1)

/-- The summed unlabeled weights. -/
theorem v26_at (x1 : Labels) (i : S_.Idx) :
    val_main_v26 (F := Ideal) x1 i = ((∑ j, (1 - |lab x1 j|) : ℝ) : EReal) := by
  rw [val_main_v26_apply, val_main_cst_10_apply, Ideal.ofBits_def]
  exact zero_add_sum _ _ (v8_at x1)

/-- The positives' summed losses at the negated score. -/
theorem v29_at (x0 : Scores) (x1 : Labels) (yr : S16777216.Idx → ℝ) (hy : ∀ j, x0 j = ((yr j : ℝ) : EReal))
    (i : S_.Idx) :
    val_main_v29 (F := Ideal) x0 x1 i = ((∑ j, max (lab x1 j) 0 * PNU.sg (-(yr j)) : ℝ) : EReal) := by
  rw [val_main_v29_apply, val_main_cst_12_apply, Ideal.ofBits_def]
  exact zero_add_sum _ _ (v28_at x0 x1 yr hy)

/-- The positives' summed losses at the score. -/
theorem v32_at (x0 : Scores) (x1 : Labels) (yr : S16777216.Idx → ℝ) (hy : ∀ j, x0 j = ((yr j : ℝ) : EReal))
    (i : S_.Idx) :
    val_main_v32 (F := Ideal) x0 x1 i = ((∑ j, max (lab x1 j) 0 * PNU.sg (yr j) : ℝ) : EReal) := by
  rw [val_main_v32_apply, val_main_cst_13_apply, Ideal.ofBits_def]
  exact zero_add_sum _ _ (v31_at x0 x1 yr hy)

/-- The negatives' summed losses at the score. -/
theorem v35_at (x0 : Scores) (x1 : Labels) (yr : S16777216.Idx → ℝ) (hy : ∀ j, x0 j = ((yr j : ℝ) : EReal))
    (i : S_.Idx) :
    val_main_v35 (F := Ideal) x0 x1 i = ((∑ j, max (-(lab x1 j)) 0 * PNU.sg (yr j) : ℝ) : EReal) := by
  rw [val_main_v35_apply, val_main_cst_14_apply, Ideal.ofBits_def]
  exact zero_add_sum _ _ (v34_at x0 x1 yr hy)

/-- The unlabeled examples' summed losses at the score. -/
theorem v38_at (x0 : Scores) (x1 : Labels) (yr : S16777216.Idx → ℝ) (hy : ∀ j, x0 j = ((yr j : ℝ) : EReal))
    (i : S_.Idx) :
    val_main_v38 (F := Ideal) x0 x1 i = ((∑ j, (1 - |lab x1 j|) * PNU.sg (yr j) : ℝ) : EReal) := by
  rw [val_main_v38_apply, val_main_cst_15_apply, Ideal.ofBits_def]
  exact zero_add_sum _ _ (v37_at x0 x1 yr hy)

/-! ## The class ratios

The program slices one entry out of the two ratios and reshapes the one-element array to a scalar. -/

/-- A one-element array has one index. -/
theorem S1_idx (k : S1.Idx) : k = ValueIdx.ix1 (0 : Fin 1) := by
  funext d
  match d with
  | ⟨0, _⟩ => exact Subsingleton.elim (α := Fin 1) _ _

/-- The first ratio. -/
theorem v41_at (x2 : Ratios) (i : S_.Idx) : val_main_v41 (F := Ideal) x2 i = x2 (ValueIdx.ix1 0) := by
  unfold val_main_v41 shapeCast
  rw [S1_idx (Shape.reshapeEquiv _ i), val_main_v40_apply]
  congr 1
  funext d
  match d with
  | ⟨0, _⟩ => rfl

/-- The second ratio. -/
theorem v44_at (x2 : Ratios) (i : S_.Idx) : val_main_v44 (F := Ideal) x2 i = x2 (ValueIdx.ix1 1) := by
  unfold val_main_v44 shapeCast
  rw [S1_idx (Shape.reshapeEquiv _ i), val_main_v43_apply]
  congr 1
  funext d
  match d with
  | ⟨0, _⟩ => rfl

/-- The first ratio, read a second time. -/
theorem v48_at (x2 : Ratios) (i : S_.Idx) : val_main_v48 (F := Ideal) x2 i = x2 (ValueIdx.ix1 0) := by
  unfold val_main_v48 shapeCast
  rw [S1_idx (Shape.reshapeEquiv _ i), val_main_v47_apply]
  congr 1
  funext d
  match d with
  | ⟨0, _⟩ => rfl

/-! ## The risk from the sums

`one` and `half` are the words for `1` and `1/2`; they stay unevaluated. -/

/-- The word for `1`. -/
abbrev one : EReal := Ideal.ofBits .f32 0x3F800000#32
/-- The word for `1/2`. -/
abbrev half : EReal := Ideal.ofBits .f32 0x3F000000#32

/-- The summed positive weights. -/
abbrev sP (x1 : Labels) : ℝ := ∑ j, max (lab x1 j) 0
/-- The summed negative weights. -/
abbrev sN (x1 : Labels) : ℝ := ∑ j, max (-(lab x1 j)) 0
/-- The summed unlabeled weights. -/
abbrev sU (x1 : Labels) : ℝ := ∑ j, (1 - |lab x1 j|)
/-- The positives' summed losses at the negated score. -/
abbrev sA (x1 : Labels) (yr : S16777216.Idx → ℝ) : ℝ := ∑ j, max (lab x1 j) 0 * PNU.sg (-(yr j))
/-- The positives' summed losses at the score. -/
abbrev sB (x1 : Labels) (yr : S16777216.Idx → ℝ) : ℝ := ∑ j, max (lab x1 j) 0 * PNU.sg (yr j)
/-- The negatives' summed losses at the score. -/
abbrev sC (x1 : Labels) (yr : S16777216.Idx → ℝ) : ℝ := ∑ j, max (-(lab x1 j)) 0 * PNU.sg (yr j)
/-- The unlabeled examples' summed losses at the score. -/
abbrev sD (x1 : Labels) (yr : S16777216.Idx → ℝ) : ℝ := ∑ j, (1 - |lab x1 j|) * PNU.sg (yr j)

/-- The positives' count, at least one. -/
theorem v23_at (x1 : Labels) (i : S_.Idx) :
    val_main_v23 (F := Ideal) x1 i = max one ((sP x1 : ℝ) : EReal) := by
  rw [val_main_v23_apply, Ideal.maximumf_def, val_main_cst_7_apply, Ideal.ofBits_def, v22_at]

/-- The negatives' count, at least one. -/
theorem v25_at (x1 : Labels) (i : S_.Idx) :
    val_main_v25 (F := Ideal) x1 i = max one ((sN x1 : ℝ) : EReal) := by
  rw [val_main_v25_apply, Ideal.maximumf_def, val_main_cst_9_apply, Ideal.ofBits_def, v24_at]

/-- The unlabeled count, at least one. -/
theorem v27_at (x1 : Labels) (i : S_.Idx) :
    val_main_v27 (F := Ideal) x1 i = max one ((sU x1 : ℝ) : EReal) := by
  rw [val_main_v27_apply, Ideal.maximumf_def, val_main_cst_11_apply, Ideal.ofBits_def, v26_at]

/-- The positives' mean loss at the negated score. -/
theorem v30_at (x0 : Scores) (x1 : Labels) (yr : S16777216.Idx → ℝ) (hy : ∀ j, x0 j = ((yr j : ℝ) : EReal)) (i : S_.Idx) :
    val_main_v30 (F := Ideal) x0 x1 i = Ideal.div ((sA x1 yr : ℝ) : EReal) (max one ((sP x1 : ℝ) : EReal)) := by
  rw [val_main_v30_apply, Ideal.hostDivf_def, v29_at x0 x1 yr hy, v23_at]

/-- The positives' mean loss at the score. -/
theorem v33_at (x0 : Scores) (x1 : Labels) (yr : S16777216.Idx → ℝ) (hy : ∀ j, x0 j = ((yr j : ℝ) : EReal)) (i : S_.Idx) :
    val_main_v33 (F := Ideal) x0 x1 i = Ideal.div ((sB x1 yr : ℝ) : EReal) (max one ((sP x1 : ℝ) : EReal)) := by
  rw [val_main_v33_apply, Ideal.hostDivf_def, v32_at x0 x1 yr hy, v23_at]

/-- The negatives' mean loss at the score. -/
theorem v36_at (x0 : Scores) (x1 : Labels) (yr : S16777216.Idx → ℝ) (hy : ∀ j, x0 j = ((yr j : ℝ) : EReal)) (i : S_.Idx) :
    val_main_v36 (F := Ideal) x0 x1 i = Ideal.div ((sC x1 yr : ℝ) : EReal) (max one ((sN x1 : ℝ) : EReal)) := by
  rw [val_main_v36_apply, Ideal.hostDivf_def, v35_at x0 x1 yr hy, v25_at]

/-- The unlabeled examples' mean loss at the score. -/
theorem v39_at (x0 : Scores) (x1 : Labels) (yr : S16777216.Idx → ℝ) (hy : ∀ j, x0 j = ((yr j : ℝ) : EReal)) (i : S_.Idx) :
    val_main_v39 (F := Ideal) x0 x1 i = Ideal.div ((sD x1 yr : ℝ) : EReal) (max one ((sU x1 : ℝ) : EReal)) := by
  rw [val_main_v39_apply, Ideal.hostDivf_def, v38_at x0 x1 yr hy, v27_at]

/-- The positive–negative risk. -/
theorem v46_at (x0 : Scores) (x1 : Labels) (yr : S16777216.Idx → ℝ) (hy : ∀ j, x0 j = ((yr j : ℝ) : EReal)) (x2 : Ratios) (i : S_.Idx) :
    val_main_v46 (F := Ideal) x0 x1 x2 i
      = x2 (ValueIdx.ix1 0) * Ideal.div ((sA x1 yr : ℝ) : EReal) (max one ((sP x1 : ℝ) : EReal))
        + x2 (ValueIdx.ix1 1) * Ideal.div ((sC x1 yr : ℝ) : EReal) (max one ((sN x1 : ℝ) : EReal)) := by
  rw [val_main_v46_apply, Ideal.addf_def, val_main_v42_apply, Ideal.mulf_def, val_main_v45_apply, Ideal.mulf_def,
    v41_at, v44_at, v30_at x0 x1 yr hy, v36_at x0 x1 yr hy]

/-- The positive–unlabeled risk. -/
theorem v51_at (x0 : Scores) (x1 : Labels) (yr : S16777216.Idx → ℝ) (hy : ∀ j, x0 j = ((yr j : ℝ) : EReal)) (x2 : Ratios) (i : S_.Idx) :
    val_main_v51 (F := Ideal) x0 x1 x2 i
      = x2 (ValueIdx.ix1 0) * (Ideal.div ((sA x1 yr : ℝ) : EReal) (max one ((sP x1 : ℝ) : EReal))
            - Ideal.div ((sB x1 yr : ℝ) : EReal) (max one ((sP x1 : ℝ) : EReal)))
        + Ideal.div ((sD x1 yr : ℝ) : EReal) (max one ((sU x1 : ℝ) : EReal)) := by
  rw [val_main_v51_apply, Ideal.addf_def, val_main_v50_apply, Ideal.mulf_def, val_main_v49_apply, Ideal.subf_def,
    v48_at, v30_at x0 x1 yr hy, v33_at x0 x1 yr hy, v39_at x0 x1 yr hy]
/-! ## The result -/

/-- The reference's result is the risk `PNU.G` of the real scores, the signed labels and the two ratios. -/
theorem ref_eq (x0 : (⟨Cert.ReferenceIdeal.S16777216, .f32⟩ : BufTy).Contents (Elt Ideal))
    (x1 : (⟨Cert.ReferenceIdeal.S16777216, .i32⟩ : BufTy).Contents (Elt Ideal))
    (x2 : (⟨Cert.ReferenceIdeal.S2, .f32⟩ : BufTy).Contents (Elt Ideal))
    (yr : Cert.ReferenceIdeal.S16777216.Idx → ℝ) (hy : ∀ j, x0 j = ((yr j : ℝ) : EReal))
    (i : Cert.ReferenceIdeal.S_.Idx) :
    Cert.ReferenceIdeal.Read.val_main_v54 (F := Ideal) x0 x1 x2 i
      = PNU.G (Ideal.ofBits .f32 0x3F800000#32) (Ideal.ofBits .f32 0x3F000000#32) yr
          (fun j => ((x1 j).toInt : ℝ)) (x2 (ValueIdx.ix1 0)) (x2 (ValueIdx.ix1 1)) := by
  rw [val_main_v54_apply, Ideal.addf_def, val_main_v52_apply, Ideal.mulf_def, val_main_v53_apply, Ideal.mulf_def,
    val_main_cst_16_apply, val_main_cst_17_apply, Ideal.ofBits_def, v46_at x0 x1 yr hy, v51_at x0 x1 yr hy]
  unfold PNU.G PNU.risk
  rfl

end Cert.ReferenceIdeal.RefValue

end
-- ==== Proof.Finite.lean ====
/-
  Finiteness of the scores from the stated precondition.

  The precondition is a conjunction of two "all" statements; its first conjunct says that at every example
  the absolute value of the score, `max x (-x)` over the extended reals, is strictly below `+∞`. An extended
  real with that property is neither `+∞` nor `-∞`, hence is a real number.
-/
import proofs.«136390_j37366215475814_2_alg».proof.Pre_finite_inputs
import Idealize.ShloMosaic.Lib.ReduceAll
import Idealize.ShloMosaic.Lib.ValueIdx
import Idealize.ShloMosaic.PureOps.Ideal.Laws

noncomputable section

namespace PNU.Finite

open Idealize.ShloMosaic

/-- The scalar shape has exactly one index. -/
instance subsingleton_scalar_idx : Subsingleton Cert.Pre_finite_inputs.S_.Idx :=
  ⟨fun a b => funext fun d => d.elim0⟩

/-- The word `0x7F800000` (sign 0, all-ones exponent, zero fraction) denotes `+∞`. -/
theorem ofBits_inf : Ideal.ofBits .f32 0x7F800000#32 = ⊤ := by
  simp [Ideal.ofBits, Ideal.ieee]

/-- An extended real whose absolute value `max x (-x)` is below `+∞` is a real number. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- A one-bit word built from a decision is `1` exactly when the decision is true. -/
theorem ofBool_eq_one (b : Bool) : BitVec.ofBool b = 1#1 ↔ b = true := by cases b <;> decide

/-- Under the precondition every score is a real number. -/
theorem finite_of_pre [Cert.Pre_finite_inputs.Facts]
    (x0 : (⟨Cert.Pre_finite_inputs.S16777216, .f32⟩ : BufTy).Contents (Elt Ideal))
    (x1 : IVec Cert.Pre_finite_inputs.S16777216 32)
    (x2 : (⟨Cert.Pre_finite_inputs.S2, .f32⟩ : BufTy).Contents (Elt Ideal))
    (h : Cert.Pre_finite_inputs.fn (F := Ideal) x0 x1 x2 = fun _ => 1#1) :
    ∀ j, ∃ r : ℝ, x0 j = ((r : ℝ) : EReal) := by
  intro j
  have e := congrFun h ValueIdx.ix0
  dsimp only [Cert.Pre_finite_inputs.fn] at e
  have e1 := (IntOp.andi_eq_one.1 e).1
  have e2 := Host.reduce_andi_all _ _ _ _ _ e1 j
  change Ideal.cmp .olt (max (x0 j) (-(x0 j))) (Ideal.ofBits .f32 0x7F800000#32) = 1#1 at e2
  rw [ofBits_inf] at e2
  unfold Ideal.cmp at e2
  rw [ofBool_eq_one] at e2
  exact real_of_abs_lt_top _ (of_decide_eq_true e2)

end PNU.Finite

end
-- ==== Proof.lean ====
/-
  The kernel and the reference compute one positive–negative–unlabeled risk.

  Scores `y` and integer labels `t` over 2^24 examples; per example the positive weight `max t 0`, the negative
  weight `max (-t) 0`, the unlabeled weight `1 - |t|`, and the logistic loss `sg` at the score or at its negation. The
  reference sums seven products over all the examples and combines them with the two class ratios (`PNU.risk`,
  `PNU.G`). The kernel sums only five of them — tile by tile into a per-lane accumulator, one result block per half of
  the examples — and the host recovers the other two sums and the unlabeled weight by subtraction: the three weights
  add to one at every example, there are `2^24` examples, and `sg (-y) = 1 - sg y`. These identities hold over the
  reals, which is where the precondition (finite scores) is used; the labels are integers and hence always real.

  Both programs' results are shown equal to `PNU.G` of the real scores and labels: the reference's by reading its
  operations one at a time; the kernel's by reading what each grid point leaves in the accumulator, adding up over
  the grid, then over the host's lines after the grid, and re-indexing the kernel's nested sums over tiles as one sum
  over the examples. The three programs terminate without a fault and leave their arguments unchanged.
-/
import proofs.«136390_j37366215475814_2_alg».proof.Defs
import proofs.«136390_j37366215475814_2_alg».proof.Proof.Gen.Kernel
import proofs.«136390_j37366215475814_2_alg».proof.Proof.Gen.Kernel.Skeleton
import proofs.«136390_j37366215475814_2_alg».proof.Proof.Gen.Kernel.Launch
import proofs.«136390_j37366215475814_2_alg».proof.Proof.Gen.Kernel.Points
import proofs.«136390_j37366215475814_2_alg».proof.Proof.Gen.Kernel.Frame
import proofs.«136390_j37366215475814_2_alg».proof.Proof.Gen.KernelIdeal
import proofs.«136390_j37366215475814_2_alg».proof.Proof.Gen.KernelIdeal.Skeleton
import proofs.«136390_j37366215475814_2_alg».proof.Proof.Gen.KernelIdeal.Launch
import proofs.«136390_j37366215475814_2_alg».proof.Proof.Gen.KernelIdeal.Points
import proofs.«136390_j37366215475814_2_alg».proof.Proof.Gen.KernelIdeal.Frame
import proofs.«136390_j37366215475814_2_alg».proof.Proof.Gen.ReferenceIdeal
import proofs.«136390_j37366215475814_2_alg».proof.Proof.Gen.ReferenceIdeal.Run
import proofs.«136390_j37366215475814_2_alg».proof.Proof.Gen.ReferenceIdeal.Read
import proofs.«136390_j37366215475814_2_alg».proof.Proof.Gen.Pre_finite_inputs
import proofs.«136390_j37366215475814_2_alg».proof.Proof.Spec
import proofs.«136390_j37366215475814_2_alg».proof.Proof.KRun
import proofs.«136390_j37366215475814_2_alg».proof.Proof.KBridge
import proofs.«136390_j37366215475814_2_alg».proof.Proof.RefValue
import proofs.«136390_j37366215475814_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- From memories that agree on the arguments, with finite scores, both programs end at the risk `PNU.G` of the
    scores and labels. -/
theorem algebraic : Cert.algebraic_KernelIdeal_ReferenceIdeal := by
  intro m ρ m' ρ' hpre hagree
  have hfin : ∀ (c : Dev Cert.KernelIdeal.nD) (j : Cert.KernelIdeal.S16777216.Idx),
      ∃ r : ℝ, m ((c.tc : Thread Cert.KernelIdeal.nD Cert.KernelIdeal.τ).loc Cert.KernelIdeal.main_arg0) j = ((r : ℝ) : EReal) :=
    fun c => PNU.Finite.finite_of_pre _ _ _ (hpre c)
  choose yr hyr using hfin
  refine ⟨fun c => Cert.KernelIdeal.HostTail.tailFn (Cert.KernelIdeal.KArray.halves m c)
    (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2]
  funext i
  exact (Cert.ReferenceIdeal.RefValue.ref_eq _ _ _ (yr c) (hyr c) i).trans
    (Cert.KernelIdeal.KBridge.kernel_value m c (yr c) (hyr c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
